-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_arg8 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S256 .f32) (main_arg5 : FVec F S768x256 .f32) (main_arg6 : FVec F S768x256 .f32) (main_arg7 : FVec F S768 .f32) (main_arg8 : FVec F S768 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_v33

def fn {F : FTy → Type} [FloatOps F] (main_arg0 : FVec F S200000x256 .f32) (main_arg1 : FVec F S200000x256 .f32) (main_arg2 : FVec F S200000x256 .f32) (main_arg3 : FVec F S256x1024 .f32) (main_arg4 : FVec F S256 .f32) (main_arg5 : FVec F S768x256 .f32) (main_arg6 : FVec F S768x256 .f32) (main_arg7 : FVec F S768 .f32) (main_arg8 : FVec F S768 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_v13 main_v16
-- ==== Kernel.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S1024x256 : Shape := ⟨2, ![1024, 256]⟩
abbrev S256x256 : Shape := ⟨2, ![256, 256]⟩
abbrev S256x768 : Shape := ⟨2, ![256, 768]⟩
abbrev S1x256 : Shape := ⟨2, ![1, 256]⟩
abbrev S1x768 : Shape := ⟨2, ![1, 768]⟩
abbrev S1000x256 : Shape := ⟨2, ![1000, 256]⟩
abbrev S1000x768 : Shape := ⟨2, ![1000, 768]⟩

abbrev nBuf : Space → Nat
  | .hbm => 26
  | .vmem => 14
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S256x1024, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S1024x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S768x256, .f32⟩
  | .hbm, ⟨17, _⟩ => ⟨S768x256, .bf16⟩
  | .hbm, ⟨18, _⟩ => ⟨S256x768, .f32⟩
  | .hbm, ⟨19, _⟩ => ⟨S256x768, .bf16⟩
  | .hbm, ⟨20, _⟩ => ⟨S256x768, .f32⟩
  | .hbm, ⟨21, _⟩ => ⟨S256x768, .bf16⟩
  | .hbm, ⟨22, _⟩ => ⟨S1x256, .f32⟩
  | .hbm, ⟨23, _⟩ => ⟨S1x768, .f32⟩
  | .hbm, ⟨24, _⟩ => ⟨S1x768, .f32⟩
  | .hbm, ⟨25, _⟩ => ⟨S200000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S768x256, .bf16⟩
  | .local _ .vmem, ⟨7, _⟩ => ⟨S256x768, .bf16⟩
  | .local _ .vmem, ⟨8, _⟩ => ⟨S256x768, .bf16⟩
  | .local _ .vmem, ⟨9, _⟩ => ⟨S1x256, .f32⟩
  | .local _ .vmem, ⟨10, _⟩ => ⟨S1x768, .f32⟩
  | .local _ .vmem, ⟨11, _⟩ => ⟨S1x768, .f32⟩
  | .local _ .vmem, ⟨12, _⟩ => ⟨S1000x256, .f32⟩
  | .local _ .vmem, ⟨13, _⟩ => ⟨S1000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x1024_S1024x256_1_0 : S256x1024.Transposes [1, 0] S1024x256
  slices_S1024x256_S256x256_0_0 : S1024x256.Slices ![0, 0] S256x256
  slices_S1024x256_S256x256_256_0 : S1024x256.Slices ![256, 0] S256x256
  slices_S1024x256_S256x256_512_0 : S1024x256.Slices ![512, 0] S256x256
  slices_S1024x256_S256x256_768_0 : S1024x256.Slices ![768, 0] S256x256
  concatenates_S256x256_S256x256_S256x256_S768x256_d0 : Shape.Concatenates [S256x256, S256x256, S256x256] S768x256 0
  bitsLt_bf16_f32 : FTy.bits .bf16 < FTy.bits .f32
  transposes_S768x256_S256x768_1_0 : S768x256.Transposes [1, 0] S256x768
  shapeCasts_S256_S1x256 : S256.ShapeCasts S1x256
  shapeCasts_S768_S1x768 : S768.ShapeCasts S1x768
  inb_S1000x256_S1000x256_0_0 : ∀ a, (![0, 0] : Fin 2 → Nat) a + S1000x256.size a ≤ S1000x256.size a
  h_S1000x256 : 0 < S1000x256.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  slices_S768x256_o0_0_S256x256 : S768x256.Slices ![0, 0] S256x256
  slices_S768x256_o256_0_S256x256 : S768x256.Slices ![256, 0] S256x256
  slices_S768x256_o512_0_S256x256 : S768x256.Slices ![512, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  dot_S1000x256_S256x256_S1000x256_1_0_0_1_n_n_wf : DotDims.WF S1000x256 S256x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S200000x256.size a
  hwx0_0 : ∀ i : grid0.Coords, EltTy.bits .f32 = 32 ∨ (Rect.block (s := S200000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S200000x256.size a
  hwx0_1 : ∀ i : grid0.Coords, EltTy.bits .f32 = 32 ∨ (Rect.block (s := S200000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S200000x256.size a
  hwx0_2 : ∀ i : grid0.Coords, EltTy.bits .f32 = 32 ∨ (Rect.block (s := S200000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .bf16 = 32 ∨ (Rect.block (s := S256x768) S256x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S200000x256.size a
  hwx0_9 : ∀ i : grid0.Coords, EltTy.bits .f32 = 32 ∨ (Rect.block (s := S200000x256) S1000x256.size (cc0_transform_9 i) (hinb0_9 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S200000x1024 : Shape := ⟨2, ![200000, 1024]⟩
abbrev S1024x256 : Shape := ⟨2, ![1024, 256]⟩
abbrev S1x256 : Shape := ⟨2, ![1, 256]⟩
abbrev S_ : Shape := ⟨0, ![]⟩
abbrev S256x768 : Shape := ⟨2, ![256, 768]⟩
abbrev S200000x768 : Shape := ⟨2, ![200000, 768]⟩
abbrev S1x768 : Shape := ⟨2, ![1, 768]⟩

abbrev nBuf : Space → Nat
  | .hbm => 74
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S256x1024, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S200000x256, .f32⟩
  | .hbm, ⟨10, _⟩ => ⟨S200000x256, .f32⟩
  | .hbm, ⟨11, _⟩ => ⟨S200000x1024, .f32⟩
  | .hbm, ⟨12, _⟩ => ⟨S1024x256, .f32⟩
  | .hbm, ⟨13, _⟩ => ⟨S200000x256, .f32⟩
  | .hbm, ⟨14, _⟩ => ⟨S1x256, .f32⟩
  | .hbm, ⟨15, _⟩ => ⟨S200000x256, .f32⟩
  | .hbm, ⟨16, _⟩ => ⟨S200000x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S200000x256, .f32⟩
  | .hbm, ⟨26, _⟩ => ⟨S_, .f32⟩
  | .hbm, ⟨27, _⟩ => ⟨S200000x256, .f32⟩
  | .hbm, ⟨28, _⟩ => ⟨S200000x256, .f32⟩
  | .hbm, ⟨29, _⟩ => ⟨S200000x256, .f32⟩
  | .hbm, ⟨30, _⟩ => ⟨S200000x256, .f32⟩
  | .hbm, ⟨31, _⟩ => ⟨S256x768, .f32⟩
  | .hbm, ⟨32, _⟩ => ⟨S200000x768, .f32⟩
  | .hbm, ⟨33, _⟩ => ⟨S1x768, .f32⟩
  | .hbm, ⟨34, _⟩ => ⟨S200000x768, .f32⟩
  | .hbm, ⟨35, _⟩ => ⟨S200000x768, .f32⟩
  | .hbm, ⟨36, _⟩ => ⟨S256x768, .f32⟩
  | .hbm, ⟨37, _⟩ => ⟨S200000x768, .f32⟩
  | .hbm, ⟨38, _⟩ => ⟨S1x768, .f32⟩
  | .hbm, ⟨39, _⟩ => ⟨S200000x768, .f32⟩
  | .hbm, ⟨40, _⟩ => ⟨S200000x768, .f32⟩
  | .hbm, ⟨41, _⟩ => ⟨S200000x256, .f32⟩
  | .hbm, ⟨42, _⟩ => ⟨S200000x256, .f32⟩
  | .hbm, ⟨43, _⟩ => ⟨S200000x256, .f32⟩
  | .hbm, ⟨44, _⟩ => ⟨S200000x256, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S200000x256, .f32⟩
  | .hbm, ⟨49, _⟩ => ⟨S200000x256, .f32⟩
  | .hbm, ⟨50, _⟩ => ⟨S_, .f32⟩
  | .hbm, ⟨51, _⟩ => ⟨S200000x256, .f32⟩
  | .hbm, ⟨52, _⟩ => ⟨S200000x256, .f32⟩
  | .hbm, ⟨53, _⟩ => ⟨S_, .f32⟩
  | .hbm, ⟨54, _⟩ => ⟨S200000x256, .f32⟩
  | .hbm, ⟨55, _⟩ => ⟨S200000x256, .f32⟩
  | .hbm, ⟨56, _⟩ => ⟨S200000x256, .f32⟩
  | .hbm, ⟨57, _⟩ => ⟨S200000x256, .f32⟩
  | .hbm, ⟨58, _⟩ => ⟨S200000x256, .f32⟩
  | .hbm, ⟨59, _⟩ => ⟨S_, .f32⟩
  | .hbm, ⟨60, _⟩ => ⟨S200000x256, .f32⟩
  | .hbm, ⟨61, _⟩ => ⟨S200000x256, .f32⟩
  | .hbm, ⟨62, _⟩ => ⟨S_, .f32⟩
  | .hbm, ⟨63, _⟩ => ⟨S200000x256, .f32⟩
  | .hbm, ⟨64, _⟩ => ⟨S200000x256, .f32⟩
  | .hbm, ⟨65, _⟩ => ⟨S200000x256, .f32⟩
  | .hbm, ⟨66, _⟩ => ⟨S200000x256, .f32⟩
  | .hbm, ⟨67, _⟩ => ⟨S200000x256, .f32⟩
  | .hbm, ⟨68, _⟩ => ⟨S_, .f32⟩
  | .hbm, ⟨69, _⟩ => ⟨S200000x256, .f32⟩
  | .hbm, ⟨70, _⟩ => ⟨S200000x256, .f32⟩
  | .hbm, ⟨71, _⟩ => ⟨S200000x256, .f32⟩
  | .hbm, ⟨72, _⟩ => ⟨S200000x256, .f32⟩
  | .hbm, ⟨73, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  concatenates_S200000x256_S200000x256_S200000x256_S200000x256_S200000x1024_d1 : Shape.Concatenates [S200000x256, S200000x256, S200000x256, S200000x256] S200000x1024 1
  transposes_S256x1024_S1024x256_1_0 : S256x1024.Transposes [1, 0] S1024x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S768x256_S256x768_1_0 : S768x256.Transposes [1, 0] S256x768
  bcast_S768_S1x768_1 : S768.BroadcastsInDim S1x768 (![1] : Fin 1 → Fin S1x768.rank)
  bcast_S1x768_S200000x768_0_1 : S1x768.BroadcastsInDim S200000x768 (![0, 1] : Fin 2 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  dot_S200000x1024_S1024x256_S200000x256_1_0_0_1_n_n_wf : DotDims.WF S200000x1024 S1024x256 S200000x256 [1] [0] [0] [1] [] []
  dot_S200000x256_S256x768_S200000x768_1_0_0_1_n_n_wf : DotDims.WF S200000x256 S256x768 S200000x768 [1] [0] [0] [1] [] []

variable [Facts₀]

def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf
def dot_S200000x256_S256x768_S200000x768_1_0_0_1_n_n : DotDims S200000x256 S256x768 S200000x768 where
  lhsContracting := [1]
  rhsContracting := [0]
  lhsNonContracting := [0]
  rhsNonContracting := [1]
  lhsBatch := []
  rhsBatch := []
  wf := dot_S200000x256_S256x768_S200000x768_1_0_0_1_n_n_wf

class Facts : Prop extends Facts₀ where

variable [Facts]
-- ==== Proof.EntryK.lean ====
/-
  The contents of a core's buffers when the one region of @main is entered: the launch contents pushed through the
  sixteen host operations that precede the region (the transpose of Wz, its four slices, the two folds w0 + w2 and
  w1 − w2, their concatenation with w3, the change of format, the two transposed recurrent weights, and the three
  biases reshaped to one row). None of these operations writes an argument array, so each argument is found as launched.
-/
import proofs.«169519_j65833258713547_2_alg».proof.Proof.Gen.Kernel.Launch
import proofs.«169519_j65833258713547_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the region is entered: the launch contents after the host operations before it. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

end Cert.Kernel.Fr

end
-- ==== Proof.FrameK.lean ====
/-
  The frame of the program: it runs to the end, faults nowhere, and leaves its argument arrays as launched.

  @main is sixteen host operations and one region over a grid of 200 points. At a point the body reads nine blocks —
  rows 1000·t … 1000·t + 999 of f, h_v and h_v', the folded gate weights, the two transposed recurrent weights and the
  three bias rows, the last six the same whole arrays at every point — and writes one block, rows 1000·t … of the
  result, by a single store that covers it. So after the body the output's buffer holds the stored value, a function of
  the nine input blocks alone (out0_9), and every input's buffer holds its block as before. With that as the proof
  data the library's launch theorem gives the run: every array of the pipeline ends at what the data compute, and
  every other buffer as the region found it; the arguments are either staged inputs or touched by nobody.
-/
import proofs.«169519_j65833258713547_2_alg».proof.Proof.EntryK
import proofs.«169519_j65833258713547_2_alg».proof.Proof.Gen.Kernel.Skeleton

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the pipeline fetched it there or the
    block index has not moved since it did — for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The three node arrays are staged inputs: they end at their entry contents, which are the launch contents. The six
    weight and bias arguments are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: every load and the one store take a whole buffer -/

abbrev rA : Rect S1000x256 := Rect.unit (s := S1000x256) ![0, 0] S1000x256.size inb_S1000x256_S1000x256_0_0
abbrev rW : Rect S768x256 := Rect.unit (s := S768x256) ![0, 0] S768x256.size inb_S768x256_S768x256_0_0
abbrev rT : Rect S256x768 := Rect.unit (s := S256x768) ![0, 0] S256x768.size inb_S256x768_S256x768_0_0
abbrev rB1 : Rect S1x256 := Rect.unit (s := S1x256) ![0, 0] S1x256.size inb_S1x256_S1x256_0_0
abbrev rB3 : Rect S1x768 := Rect.unit (s := S1x768) ![0, 0] S1x768.size inb_S1x768_S1x768_0_0

/-- The output's buffer after the body, from the nine input blocks: its one store. -/
def out0_9 (x0 : Vec F S1000x256 .f32) (x1 : Vec F S1000x256 .f32) (x2 : Vec F S1000x256 .f32) (x3 : Vec F S768x256 .bf16) (x4 : Vec F S256x768 .bf16) (x5 : Vec F S256x768 .bf16) (x6 : Vec F S1x256 .f32) (x7 : Vec F S1x768 .f32) (x8 : Vec F S1x768 .f32) : Vec F S1000x256 .f32 :=
  View.canon [⟨rA, k0_pay1 (k0_pay2 (View.ld x1 rA) (View.ld x2 rA) (View.ld x3 rW) (View.ld x6 rB1)) (k0_pay3 (View.ld x1 rA) (View.ld x2 rA) (View.ld x3 rW) (View.ld x6 rB1)) (k0_pay4 (View.ld x5 rT)) (k0_pay5 (View.ld x0 rA) (View.ld x4 rT) (View.ld x7 rB3)) (View.ld x8 rB3)⟩]

/-- The one store covers the buffer. -/
theorem cover0_9 (p0 : Vec F S1000x256 .f32) (y : S1000x256.Idx) :
    ∃ pc ∈ ([⟨rA, p0⟩] : List (View.Piece (Elt F) S1000x256 .f32)), y ∈ pc.1.set :=
  View.cover_of_tiled [⟨rA, p0⟩] S1000x256.size (by rfl) y

/-! ## The body's triple -/

set_option maxHeartbeats 4000000 in
/-- On whole buffers, the inputs' at contents x0 … x8 and the output's at anything, the body runs to the end with
    the inputs' as they were and the output's at out0_9 of them. -/
theorem sound_kernel (c : Dev nD) (E : Set ℕ) (i : grid0.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S768x256 .bf16) (harg4 : arg4.IsWhole) (arg5 : Memref sig .tc .vmem S256x768 .bf16) (harg5 : arg5.IsWhole) (arg6 : Memref sig .tc .vmem S256x768 .bf16) (harg6 : arg6.IsWhole) (arg7 : Memref sig .tc .vmem S1x256 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1000x256 .f32) (harg10 : arg10.IsWhole)
    (x0 : Vec F S1000x256 .f32) (x1 : Vec F S1000x256 .f32) (x2 : Vec F S1000x256 .f32) (x3 : Vec F S768x256 .bf16) (x4 : Vec F S256x768 .bf16) (x5 : Vec F S256x768 .bf16) (x6 : Vec F S1x256 .f32) (x7 : Vec F S1x768 .f32) (x8 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The arrays as the region finds them; after the body at point t each input's buffer at its block and the output's at
    out0_9 of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data compute,
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.EntryI.lean ====
/-
  The contents of a core's buffers when the one region of @main is entered: the launch contents pushed through the
  sixteen host operations that precede the region (the transpose of Wz, its four slices, the two folds w0 + w2 and
  w1 − w2, their concatenation with w3, the change of format, the two transposed recurrent weights, and the three
  biases reshaped to one row). None of these operations writes an argument array, so each argument is found as launched.
-/
import proofs.«169519_j65833258713547_2_alg».proof.Proof.Gen.KernelIdeal.Launch
import proofs.«169519_j65833258713547_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the region is entered: the launch contents after the host operations before it. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

end Cert.KernelIdeal.Fr

end
-- ==== Proof.FrameI.lean ====
/-
  The frame of the program: it runs to the end, faults nowhere, and leaves its argument arrays as launched.

  @main is sixteen host operations and one region over a grid of 200 points. At a point the body reads nine blocks —
  rows 1000·t … 1000·t + 999 of f, h_v and h_v', the folded gate weights, the two transposed recurrent weights and the
  three bias rows, the last six the same whole arrays at every point — and writes one block, rows 1000·t … of the
  result, by a single store that covers it. So after the body the output's buffer holds the stored value, a function of
  the nine input blocks alone (out0_9), and every input's buffer holds its block as before. With that as the proof
  data the library's launch theorem gives the run: every array of the pipeline ends at what the data compute, and
  every other buffer as the region found it; the arguments are either staged inputs or touched by nobody.
-/
import proofs.«169519_j65833258713547_2_alg».proof.Proof.EntryI
import proofs.«169519_j65833258713547_2_alg».proof.Proof.Gen.KernelIdeal.Skeleton

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the pipeline fetched it there or the
    block index has not moved since it did — for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The three node arrays are staged inputs: they end at their entry contents, which are the launch contents. The six
    weight and bias arguments are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: every load and the one store take a whole buffer -/

abbrev rA : Rect S1000x256 := Rect.unit (s := S1000x256) ![0, 0] S1000x256.size inb_S1000x256_S1000x256_0_0
abbrev rW : Rect S768x256 := Rect.unit (s := S768x256) ![0, 0] S768x256.size inb_S768x256_S768x256_0_0
abbrev rT : Rect S256x768 := Rect.unit (s := S256x768) ![0, 0] S256x768.size inb_S256x768_S256x768_0_0
abbrev rB1 : Rect S1x256 := Rect.unit (s := S1x256) ![0, 0] S1x256.size inb_S1x256_S1x256_0_0
abbrev rB3 : Rect S1x768 := Rect.unit (s := S1x768) ![0, 0] S1x768.size inb_S1x768_S1x768_0_0

/-- The output's buffer after the body, from the nine input blocks: its one store. -/
def out0_9 (x0 : Vec F S1000x256 .f32) (x1 : Vec F S1000x256 .f32) (x2 : Vec F S1000x256 .f32) (x3 : Vec F S768x256 .bf16) (x4 : Vec F S256x768 .bf16) (x5 : Vec F S256x768 .bf16) (x6 : Vec F S1x256 .f32) (x7 : Vec F S1x768 .f32) (x8 : Vec F S1x768 .f32) : Vec F S1000x256 .f32 :=
  View.canon [⟨rA, k0_pay1 (k0_pay2 (View.ld x1 rA) (View.ld x2 rA) (View.ld x3 rW) (View.ld x6 rB1)) (k0_pay3 (View.ld x1 rA) (View.ld x2 rA) (View.ld x3 rW) (View.ld x6 rB1)) (k0_pay4 (View.ld x5 rT)) (k0_pay5 (View.ld x0 rA) (View.ld x4 rT) (View.ld x7 rB3)) (View.ld x8 rB3)⟩]

/-- The one store covers the buffer. -/
theorem cover0_9 (p0 : Vec F S1000x256 .f32) (y : S1000x256.Idx) :
    ∃ pc ∈ ([⟨rA, p0⟩] : List (View.Piece (Elt F) S1000x256 .f32)), y ∈ pc.1.set :=
  View.cover_of_tiled [⟨rA, p0⟩] S1000x256.size (by rfl) y

/-! ## The body's triple -/

set_option maxHeartbeats 4000000 in
/-- On whole buffers, the inputs' at contents x0 … x8 and the output's at anything, the body runs to the end with
    the inputs' as they were and the output's at out0_9 of them. -/
theorem sound_kernel (c : Dev nD) (E : Set ℕ) (i : grid0.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S768x256 .bf16) (harg4 : arg4.IsWhole) (arg5 : Memref sig .tc .vmem S256x768 .bf16) (harg5 : arg5.IsWhole) (arg6 : Memref sig .tc .vmem S256x768 .bf16) (harg6 : arg6.IsWhole) (arg7 : Memref sig .tc .vmem S1x256 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1000x256 .f32) (harg10 : arg10.IsWhole)
    (x0 : Vec F S1000x256 .f32) (x1 : Vec F S1000x256 .f32) (x2 : Vec F S1000x256 .f32) (x3 : Vec F S768x256 .bf16) (x4 : Vec F S256x768 .bf16) (x5 : Vec F S256x768 .bf16) (x6 : Vec F S1x256 .f32) (x7 : Vec F S1x768 .f32) (x8 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The arrays as the region finds them; after the body at point t each input's buffer at its block and the output's at
    out0_9 of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data compute,
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Spec.lean ====
/-
  The fused gate and the gated recurrent cell, one node (one row) at a time, on the extended reals.

  For a node with feature rows a = h_v, b = h_v', f, all of length 256:
    gate pre-activation  s = [a, b, a − b, a·b] · Wzᵀ + bz          (one product of length 1024), or, with the weights
                           folded, a · (w0 + w2) + b · (w1 − w2) + (a·b) · w3 + bz   (three products of length 256);
    z = logistic s,  fuse = z·a + (1 − z)·b;
    gi = f · Wihᵀ + bih,  gh = fuse · Whhᵀ + bhh   (length 768, read in three thirds: reset, update, candidate);
    r = logistic (gi₀ + gh₀),  u = logistic (gi₁ + gh₁),  n = tanh (gi₂ + r·gh₂);
    result = (1 − u)·n + u·fuse.
  The two spellings of s agree whenever a, b and Wz are finite (distributivity of · over + and −).
-/
import Idealize.ShloMosaic.PureOps.Ideal
import Idealize.ShloMosaic.Lib.ValueIdx
import proofs.«169519_j65833258713547_2_alg».proof.Proof.LibDenseRows

noncomputable section

namespace Cert.Spec

open Idealize.ShloMosaic Idealize.ShloMosaic.ValueIdx Cert.DenseRows

/-- The f32 word of 1.0 read on the extended reals (the same word in both programs, never evaluated). -/
abbrev one : EReal := Ideal.ofBits .f32 0x3F800000#32

/-- Column j of the first, second, third third of a row of length 768. -/
def c0 (j : Fin 256) : Fin 768 := ⟨j.val, by omega⟩
def c1 (j : Fin 256) : Fin 768 := ⟨256 + j.val, by omega⟩
def c2 (j : Fin 256) : Fin 768 := ⟨512 + j.val, by omega⟩

/-- A [768, 256] array as the matrix of its transpose: entry (j, k) is the array at (k, j). -/
def matT (W : (⟨2, ![768, 256]⟩ : Shape).Idx → EReal) : Fin 256 → Fin 768 → EReal := fun j k => W (ix2 k j)

/-- Row 0 of a [1, n] array. -/
def row0 {n : ℕ} (b : (⟨2, ![1, n]⟩ : Shape).Idx → EReal) : Fin n → EReal := fun k => b (ix2 (0 : Fin 1) k)

/-- The gate's pre-activation with folded weights WF (a [768, 256] matrix: rows 0–255 multiply a, rows 256–511
    multiply b, rows 512–767 multiply a·b), summed left to right, plus the bias. -/
def gateK (a b : Fin 256 → EReal) (WF : Fin 768 → Fin 256 → EReal) (bz : Fin 256 → EReal) : Fin 256 → EReal :=
  fun q => (((∑ j : Fin 256, a j * WF (c0 j) q) + (∑ j : Fin 256, b j * WF (c1 j) q))
    + (∑ j : Fin 256, (a j * b j) * WF (c2 j) q)) + bz q

/-- The concatenated feature row [a, b, a − b, a·b], of length 1024. -/
def cat4 (a b : Fin 256 → EReal) : Fin 1024 → EReal := fun k =>
  if h : k.val < 256 then a ⟨k.val, h⟩
  else if h2 : k.val < 512 then b ⟨k.val - 256, by omega⟩
  else if h3 : k.val < 768 then a ⟨k.val - 512, by omega⟩ - b ⟨k.val - 512, by omega⟩
  else a ⟨k.val - 768, by omega⟩ * b ⟨k.val - 768, by omega⟩

/-- The gate's pre-activation as one product of the concatenated row against Wzᵀ (Wz a [256, 1024] matrix), plus the bias. -/
def gateR (a b : Fin 256 → EReal) (Wz : Fin 256 → Fin 1024 → EReal) (bz : Fin 256 → EReal) : Fin 256 → EReal :=
  fun q => (∑ k : Fin 1024, cat4 a b k * Wz q k) + bz q

/-- The folded weights: row k < 256 is w0 + w2, row 256 ≤ k < 512 is w1 − w2, row 512 ≤ k is w3, where
    wᵢ (j, q) = Wz (q, 256·i + j). -/
def foldW (Wz : Fin 256 → Fin 1024 → EReal) : Fin 768 → Fin 256 → EReal := fun k q =>
  if h : k.val < 256 then Wz q ⟨k.val, by omega⟩ + Wz q ⟨512 + k.val, by omega⟩
  else if h2 : k.val < 512 then Wz q ⟨k.val, by omega⟩ - Wz q ⟨256 + k.val, by omega⟩
  else Wz q ⟨256 + k.val, by have := k.isLt; omega⟩

/-- The fused row z·a + (1 − z)·b with z = logistic s. -/
def fuseRow (s a b : Fin 256 → EReal) : Fin 256 → EReal :=
  fun j => Ideal.logistic (s j) * a j + (one - Ideal.logistic (s j)) * b j

/-- The recurrent cell on the fused row fu and the feature row f: (1 − u)·n + u·fu. -/
def cell (fu f : Fin 256 → EReal) (Wi Wh : Fin 256 → Fin 768 → EReal) (bi bh : Fin 768 → EReal) : Fin 256 → EReal :=
  fun q =>
    (one - Ideal.logistic (affine f Wi bi (c1 q) + affine fu Wh bh (c1 q)))
        * Ideal.tanh (affine f Wi bi (c2 q)
            + Ideal.logistic (affine f Wi bi (c0 q) + affine fu Wh bh (c0 q)) * affine fu Wh bh (c2 q))
      + Ideal.logistic (affine f Wi bi (c1 q) + affine fu Wh bh (c1 q)) * fu q

/-- One node's result from its gate pre-activation s. -/
def node (s f a b : Fin 256 → EReal) (Wi Wh : Fin 256 → Fin 768 → EReal) (bi bh : Fin 768 → EReal) : Fin 256 → EReal :=
  cell (fuseRow s a b) f Wi Wh bi bh

/-! ## The whole result array, in the two arrangements -/

/-- With the weights folded (three products of length 256 for the gate). -/
def outK (f hv hv2 : (⟨2, ![200000, 256]⟩ : Shape).Idx → EReal) (Wz : (⟨2, ![256, 1024]⟩ : Shape).Idx → EReal)
    (bz : (⟨1, ![256]⟩ : Shape).Idx → EReal) (Wih Whh : (⟨2, ![768, 256]⟩ : Shape).Idx → EReal)
    (bih bhh : (⟨1, ![768]⟩ : Shape).Idx → EReal) : (⟨2, ![200000, 256]⟩ : Shape).Idx → EReal := fun i =>
  node (gateK (row hv (i 0)) (row hv2 (i 0)) (foldW (mat Wz)) (vec bz)) (row f (i 0)) (row hv (i 0)) (row hv2 (i 0))
    (matT Wih) (matT Whh) (vec bih) (vec bhh) (i 1)

/-- With one product of length 1024 for the gate. -/
def outR (f hv hv2 : (⟨2, ![200000, 256]⟩ : Shape).Idx → EReal) (Wz : (⟨2, ![256, 1024]⟩ : Shape).Idx → EReal)
    (bz : (⟨1, ![256]⟩ : Shape).Idx → EReal) (Wih Whh : (⟨2, ![768, 256]⟩ : Shape).Idx → EReal)
    (bih bhh : (⟨1, ![768]⟩ : Shape).Idx → EReal) : (⟨2, ![200000, 256]⟩ : Shape).Idx → EReal := fun i =>
  node (gateR (row hv (i 0)) (row hv2 (i 0)) (mat Wz) (vec bz)) (row f (i 0)) (row hv (i 0)) (row hv2 (i 0))
    (matT Wih) (matT Whh) (vec bih) (vec bhh) (i 1)

end Cert.Spec

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.Payload.lean ====
/-
  The block computation at one entry.

  For a block of 1000 nodes the body forms, for node p with feature rows a = h_v p, b = h_v' p, f = f p:
    the gate pre-activation s = a · WF₀ + b · WF₁ + (a·b) · WF₂ + bz  (three products of length 256 against the three
    row-thirds of the folded weights), the fused row z·a + (1 − z)·b with z = logistic s, the two layers
    gi = f · Wi + bi and gh = fuse · Wh + bh of length 768, and the recurrent cell read in three column-thirds.
  Each product into the zero accumulator is a finite sum over the contracted coordinate; each slice reads the
  operand at a shifted coordinate; changes of float format are the identity on the extended reals. Entry (p, q) of
  the stored block is therefore the node function of the specification at row p, column q.
-/
import proofs.«169519_j65833258713547_2_alg».proof.Proof.Gen.KernelIdeal.Skeleton
import proofs.«169519_j65833258713547_2_alg».proof.Proof.Spec
import proofs.«169519_j65833258713547_2_alg».proof.Proof.LibDotRead
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.DenseRows Idealize.ShloMosaic Idealize.ShloMosaic.ValueIdx

/-! ## General readings -/

/-- Entry (r, n) of a plain product into the zero accumulator is the sum over the contracted coordinate. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) (n : Fin N) :
    matmul d prec a w (constant (F := Ideal) ⟨2, ![R, N]⟩ .f32 0x00000000#32) (ix2 r n)
      = ∑ k : Fin K, a (ix2 r k) * w (ix2 k n) := by
  subst hd
  show FloatOps.matmul (DotDims.plain R K N) prec a w (constant (F := Ideal) ⟨2, ![R, N]⟩ .f32 0x00000000#32) (ix2 r n) = _
  rw [Ideal.matmul_constant_zero_apply, plain_contr_sum]

/-- A unit-stride slice of a two-axis array, read at (j, q), is the array at the shifted coordinates. -/
theorem slice2_apply {α : Type} {A B A' B' : ℕ} (o0 o1 : ℕ) (x : (⟨2, ![A, B]⟩ : Shape).Idx → α)
    (h : (⟨2, ![A, B]⟩ : Shape).Slices ![o0, o1] ⟨2, ![A', B']⟩) (j : Fin A') (q : Fin B') (k : Fin A) (c : Fin B)
    (hk : k.val = o0 + j.val) (hc : c.val = o1 + q.val) :
    extractStridedSlice ⟨2, ![A', B']⟩ ![o0, o1] x h (ix2 j q) = x (ix2 k c) := by
  refine extractStridedSlice_apply ![o0, o1] x h (ix2 j q) (ix2 k c) fun a => ?_
  match a with
  | ⟨0, _⟩ => exact hk
  | ⟨1, _⟩ => exact hc

/-- The two printed dimension records are the plain ones: rows × contraction times contraction × columns. -/
theorem dot256_plain : dot_S1000x256_S256x256_S1000x256_1_0_0_1_n_n = DotDims.plain 1000 256 256 := rfl
theorem dot768_plain : dot_S1000x256_S256x768_S1000x768_1_0_0_1_n_n = DotDims.plain 1000 256 768 := rfl

/-! ## The gate and the fused row -/

/-- One of the gate's three products at (p, q): the left block's row p against rows off … off + 255 of the folded weights. -/
theorem gate_prod_apply (a : FVec Ideal S1000x256 .f32) (w : FVec Ideal S768x256 .bf16) (off : ℕ)
    (hb : FTy.bits .bf16 < FTy.bits .f32) (hc : S768x256.ShapeCasts S768x256) (hs : S768x256.Slices ![off, 0] S256x256)
    (p : Fin 1000) (q : Fin 256) (ck : Fin 256 → Fin 768) (hck : ∀ j, (ck j).val = off + j.val) :
    matmul dot_S1000x256_S256x256_S1000x256_1_0_0_1_n_n none (truncf .bf16 a hb : FVec Ideal S1000x256 .bf16)
        (extractStridedSlice S256x256 ![off, 0] (shapeCast S768x256 w hc) hs)
        (constant (F := Ideal) S1000x256 .f32 0x00000000#32) (ix2 p q)
      = ∑ j : Fin 256, a (ix2 p j) * w (ix2 (ck j) q) := by
  refine (matmul_plain_apply _ dot256_plain none _ _ p q).trans ?_
  refine Finset.sum_congr rfl fun j _ => ?_
  rw [shapeCast_self, slice2_apply off 0 w hs j q (ck j) q (hck j) (by omega)]
  rfl

/-- The fused row at (p, j). -/
theorem pay2_apply (x1 x2 : Vec Ideal S1000x256 .f32) (x3 : Vec Ideal S768x256 .bf16) (x6 : Vec Ideal S1x256 .f32)
    (p : Fin 1000) (j : Fin 256) :
    k0_pay2 (F := Ideal) x1 x2 x3 x6 (ix2 p j)
      = Cert.Spec.fuseRow (Cert.Spec.gateK (row x1 p) (row x2 p) (mat x3) (Cert.Spec.row0 x6)) (row x1 p) (row x2 p) j := by
  have hs : Cert.Spec.gateK (row x1 p) (row x2 p) (mat x3) (Cert.Spec.row0 x6) j
      = (((∑ i : Fin 256, x1 (ix2 p i) * x3 (ix2 (Cert.Spec.c0 i) j)) + (∑ i : Fin 256, x2 (ix2 p i) * x3 (ix2 (Cert.Spec.c1 i) j)))
          + (∑ i : Fin 256, (x1 (ix2 p i) * x2 (ix2 p i)) * x3 (ix2 (Cert.Spec.c2 i) j))) + x6 (ix2 (0 : Fin 1) j) := rfl
  unfold k0_pay2 Cert.Spec.fuseRow
  rw [hs]
  show Ideal.logistic (((_ + _) + _) + _) * _ + (_ - Ideal.logistic (((_ + _) + _) + _)) * _ = _
  rw [gate_prod_apply x1 x3 0 _ _ _ p j Cert.Spec.c0 (fun i => by show i.val = 0 + i.val; omega),
    gate_prod_apply x2 x3 256 _ _ _ p j Cert.Spec.c1 (fun i => rfl),
    gate_prod_apply (mulf x1 x2) x3 512 _ _ _ p j Cert.Spec.c2 (fun i => rfl),
    shapeCast_self, broadcastTo_1b_ab_apply]
  rfl

/-- The operand of the second layer is the fused block with its float format changed: the same values. -/
theorem pay3_eq (x1 x2 : Vec Ideal S1000x256 .f32) (x3 : Vec Ideal S768x256 .bf16) (x6 : Vec Ideal S1x256 .f32) :
    k0_pay3 (F := Ideal) x1 x2 x3 x6 = k0_pay2 (F := Ideal) x1 x2 x3 x6 := rfl

/-- The second layer's weights are passed on as loaded. -/
theorem pay4_eq (x5 : Vec Ideal S256x768 .bf16) : k0_pay4 (F := Ideal) x5 = x5 := by
  unfold k0_pay4
  exact shapeCast_self _ _

/-! ## The two layers of length 768 -/

/-- A product into the zero accumulator plus the bias row broadcast over the block, at (p, k). -/
theorem layer_apply (a : FVec Ideal S1000x256 .bf16) (w : FVec Ideal S256x768 .bf16) (b : FVec Ideal S1x768 .f32)
    (hc : S1x768.ShapeCasts S1x768) (hb : S1x768.Broadcasts S1000x768) (p : Fin 1000) (k : Fin 768) :
    addf (matmul dot_S1000x256_S256x768_S1000x768_1_0_0_1_n_n none a w (constant (F := Ideal) S1000x768 .f32 0x00000000#32))
        (broadcastTo S1000x768 (shapeCast S1x768 b hc) hb) (ix2 p k)
      = affine (fun j => a (ix2 p j)) (mat w) (Cert.Spec.row0 b) k := by
  show _ + _ = _
  rw [matmul_plain_apply _ dot768_plain none a w p k, shapeCast_self, broadcastTo_1b_ab_apply]
  rfl

/-- The first layer, on the feature block, at (p, k). -/
theorem pay5_apply (x0 : Vec Ideal S1000x256 .f32) (x4 : Vec Ideal S256x768 .bf16) (x7 : Vec Ideal S1x768 .f32)
    (p : Fin 1000) (k : Fin 768) :
    k0_pay5 (F := Ideal) x0 x4 x7 (ix2 p k) = affine (row x0 p) (mat x4) (Cert.Spec.row0 x7) k := by
  unfold k0_pay5
  refine (layer_apply _ _ x7 _ _ p k).trans ?_
  rw [shapeCast_self]
  rfl

/-! ## The recurrent cell -/

/-- The stored value at (p, q), over the values it reads: the cell on the three column-thirds of the two layers. -/
theorem pay1_apply_gen (v27 : FVec Ideal S1000x256 .f32) (v28 : FVec Ideal S1000x256 .bf16) (v32 : FVec Ideal S256x768 .bf16)
    (v37 : FVec Ideal S1000x768 .f32) (v39 : Vec Ideal S1x768 .f32) (p : Fin 1000) (q : Fin 256) :
    k0_pay1 (F := Ideal) v27 v28 v32 v37 v39 (ix2 p q)
      = (Cert.Spec.one - Ideal.logistic (v37 (ix2 p (Cert.Spec.c1 q))
              + affine (fun j => v28 (ix2 p j)) (mat v32) (Cert.Spec.row0 v39) (Cert.Spec.c1 q)))
          * Ideal.tanh (v37 (ix2 p (Cert.Spec.c2 q))
              + Ideal.logistic (v37 (ix2 p (Cert.Spec.c0 q))
                  + affine (fun j => v28 (ix2 p j)) (mat v32) (Cert.Spec.row0 v39) (Cert.Spec.c0 q))
                * affine (fun j => v28 (ix2 p j)) (mat v32) (Cert.Spec.row0 v39) (Cert.Spec.c2 q))
        + Ideal.logistic (v37 (ix2 p (Cert.Spec.c1 q))
              + affine (fun j => v28 (ix2 p j)) (mat v32) (Cert.Spec.row0 v39) (Cert.Spec.c1 q))
          * v27 (ix2 p q) := by
  unfold k0_pay1
  show (_ - Ideal.logistic (_ + _)) * Ideal.tanh (_ + Ideal.logistic (_ + _) * _) + Ideal.logistic (_ + _) * _ = _
  rw [slice2_apply 0 0 v37 _ p q p (Cert.Spec.c0 q) (by omega) (by show q.val = 0 + q.val; omega),
    slice2_apply 0 256 v37 _ p q p (Cert.Spec.c1 q) (by omega) rfl,
    slice2_apply 0 512 v37 _ p q p (Cert.Spec.c2 q) (by omega) rfl,
    slice2_apply 0 0 _ _ p q p (Cert.Spec.c0 q) (by omega) (by show q.val = 0 + q.val; omega),
    slice2_apply 0 256 _ _ p q p (Cert.Spec.c1 q) (by omega) rfl,
    slice2_apply 0 512 _ _ p q p (Cert.Spec.c2 q) (by omega) rfl,
    layer_apply v28 v32 v39 _ _ p (Cert.Spec.c0 q), layer_apply v28 v32 v39 _ _ p (Cert.Spec.c1 q),
    layer_apply v28 v32 v39 _ _ p (Cert.Spec.c2 q)]
  rfl

/-- Entry (p, q) of the stored block is the node function of the specification at row p, column q. -/
theorem pay_apply (x0 x1 x2 : Vec Ideal S1000x256 .f32) (x3 : Vec Ideal S768x256 .bf16) (x4 x5 : Vec Ideal S256x768 .bf16)
    (x6 : Vec Ideal S1x256 .f32) (x7 x8 : Vec Ideal S1x768 .f32) (p : Fin 1000) (q : Fin 256) :
    k0_pay1 (F := Ideal) (k0_pay2 x1 x2 x3 x6) (k0_pay3 x1 x2 x3 x6) (k0_pay4 x5) (k0_pay5 x0 x4 x7) x8 (ix2 p q)
      = Cert.Spec.node (Cert.Spec.gateK (row x1 p) (row x2 p) (mat x3) (Cert.Spec.row0 x6)) (row x0 p) (row x1 p) (row x2 p)
          (mat x4) (mat x5) (Cert.Spec.row0 x7) (Cert.Spec.row0 x8) q := by
  have hfu : (fun j => k0_pay3 (F := Ideal) x1 x2 x3 x6 (ix2 p j))
      = Cert.Spec.fuseRow (Cert.Spec.gateK (row x1 p) (row x2 p) (mat x3) (Cert.Spec.row0 x6)) (row x1 p) (row x2 p) :=
    funext fun j => pay2_apply x1 x2 x3 x6 p j
  rw [pay1_apply_gen, hfu, pay4_eq, pay5_apply, pay5_apply, pay5_apply, pay2_apply]
  rfl

end Cert.KernelIdeal.Payload

end
-- ==== Proof.HostPrefix.lean ====
/-
  What the host operations before the region leave in the weight buffers, read entry by entry: the folded gate
  weights, the two transposed recurrent weights, and the three biases reshaped to one row.
-/
import proofs.«169519_j65833258713547_2_alg».proof.Proof.EntryI
import proofs.«169519_j65833258713547_2_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostPrefix

open Cert.KernelIdeal Cert.KernelIdeal.Gen Cert.KernelIdeal.Fr Cert.DenseRows
open Idealize.ShloMosaic Idealize.ShloMosaic.TcCoe Idealize.ShloMosaic.ValueIdx
open Idealize.ShloMosaic.StableHlo
open Idealize.SL.Sem

variable (m : (ℓ : Loc nD τ sig) → Buf (Elt Ideal) ℓ) (c : Dev nD)

/-! ## The three biases: an [n] array reshaped to [1, n] -/

theorem v13_e : (V m c main_v13 : S1x256.Idx → EReal)
    = shapeCast S1x256 (m ((c : Thread nD τ).loc main_arg4) : S256.Idx → EReal) shapeCasts_S256_S1x256 := by
  dsimp only [V, hostOps0]
  after_results
  rfl

theorem v14_e : (V m c main_v14 : S1x768.Idx → EReal)
    = shapeCast S1x768 (m ((c : Thread nD τ).loc main_arg7) : S768.Idx → EReal) shapeCasts_S768_S1x768 := by
  dsimp only [V, hostOps0]
  after_results
  rfl

theorem v15_e : (V m c main_v15 : S1x768.Idx → EReal)
    = shapeCast S1x768 (m ((c : Thread nD τ).loc main_arg8) : S768.Idx → EReal) shapeCasts_S768_S1x768 := by
  dsimp only [V, hostOps0]
  after_results
  rfl

/-- Row 0 of the reshaped gate bias is the bias. -/
theorem v13_row : Cert.Spec.row0 (V m c main_v13 : S1x256.Idx → EReal)
    = vec (m ((c : Thread nD τ).loc main_arg4) : S256.Idx → EReal) := by
  funext k
  show (V m c main_v13 : S1x256.Idx → EReal) (ix2 (0 : Fin 1) k) = _
  rw [v13_e]
  exact shapeCast_a_1a_apply _ shapeCasts_S256_S1x256 0 k

/-- Row 0 of the reshaped input bias is the bias. -/
theorem v14_row : Cert.Spec.row0 (V m c main_v14 : S1x768.Idx → EReal)
    = vec (m ((c : Thread nD τ).loc main_arg7) : S768.Idx → EReal) := by
  funext k
  show (V m c main_v14 : S1x768.Idx → EReal) (ix2 (0 : Fin 1) k) = _
  rw [v14_e]
  exact shapeCast_a_1a_apply _ shapeCasts_S768_S1x768 0 k

/-- Row 0 of the reshaped recurrent bias is the bias. -/
theorem v15_row : Cert.Spec.row0 (V m c main_v15 : S1x768.Idx → EReal)
    = vec (m ((c : Thread nD τ).loc main_arg8) : S768.Idx → EReal) := by
  funext k
  show (V m c main_v15 : S1x768.Idx → EReal) (ix2 (0 : Fin 1) k) = _
  rw [v15_e]
  exact shapeCast_a_1a_apply _ shapeCasts_S768_S1x768 0 k

/-! ## The two recurrent weights: a [768, 256] array transposed -/

/-- The transpose of a [768, 256] array reads, at (j, k), the array at (k, j). -/
theorem transpose768_apply (W : S768x256.Idx → EReal) (j : Fin 256) (k : Fin 768) :
    transpose S256x768 [1, 0] W transposes_S768x256_S256x768_1_0 (ix2 j k) = W (ix2 k j) :=
  transpose_apply [1, 0] W transposes_S768x256_S256x768_1_0 (ix2 j k) (ix2 k j) (fun b => match b with
    | ⟨0, _⟩ => rfl
    | ⟨1, _⟩ => rfl)

theorem v10_e : (V m c main_v10 : S256x768.Idx → EReal)
    = truncf (F := Ideal) .bf16 (transpose S256x768 [1, 0] (m ((c : Thread nD τ).loc main_arg5) : FVec Ideal S768x256 .f32)
        transposes_S768x256_S256x768_1_0) bitsLt_bf16_f32 := by
  dsimp only [V, hostOps0]
  after_results

theorem v12_e : (V m c main_v12 : S256x768.Idx → EReal)
    = truncf (F := Ideal) .bf16 (transpose S256x768 [1, 0] (m ((c : Thread nD τ).loc main_arg6) : FVec Ideal S768x256 .f32)
        transposes_S768x256_S256x768_1_0) bitsLt_bf16_f32 := by
  dsimp only [V, hostOps0]
  after_results

/-- The transposed input weights, as a matrix. -/
theorem v10_mat : mat (V m c main_v10 : S256x768.Idx → EReal)
    = Cert.Spec.matT (m ((c : Thread nD τ).loc main_arg5) : S768x256.Idx → EReal) := by
  funext j k
  show (V m c main_v10 : S256x768.Idx → EReal) (ix2 j k) = _
  rw [v10_e]
  exact transpose768_apply _ j k

/-- The transposed recurrent weights, as a matrix. -/
theorem v12_mat : mat (V m c main_v12 : S256x768.Idx → EReal)
    = Cert.Spec.matT (m ((c : Thread nD τ).loc main_arg6) : S768x256.Idx → EReal) := by
  funext j k
  show (V m c main_v12 : S256x768.Idx → EReal) (ix2 j k) = _
  rw [v12_e]
  exact transpose768_apply _ j k

/-! ## The folded gate weights -/

/-- The transpose of the [256, 1024] gate weights reads, at (k, q), the weights at (q, k). -/
theorem transpose1024_apply (W : S256x1024.Idx → EReal) (k : Fin 1024) (q : Fin 256) :
    transpose S1024x256 [1, 0] W transposes_S256x1024_S1024x256_1_0 (ix2 k q) = W (ix2 q k) :=
  transpose_apply [1, 0] W transposes_S256x1024_S1024x256_1_0 (ix2 k q) (ix2 q k) (fun b => match b with
    | ⟨0, _⟩ => rfl
    | ⟨1, _⟩ => rfl)

/-- A [256, 256] slice of a [1024, 256] array at row offset `off` reads, at (j, q), the array at (off + j, q). -/
theorem slice_apply (T : S1024x256.Idx → EReal) (off : ℕ) (h : S1024x256.Slices ![off, 0] S256x256) (j q : Fin 256)
    (k : Fin 1024) (hk : k.val = off + j.val) :
    extractStridedSlice S256x256 ![off, 0] T h (ix2 j q) = T (ix2 k q) :=
  extractStridedSlice_apply ![off, 0] T h (ix2 j q) (ix2 k q) (fun a => match a with
    | ⟨0, _⟩ => by show k.val = off + j.val; exact hk
    | ⟨1, _⟩ => by show q.val = 0 + q.val; omega)

section Cat3

variable (x0 x1 x2 : S256x256.Idx → EReal) (k : Fin 768) (q : Fin 256)

/-- Three [256, 256] arrays stacked along the rows: rows 0–255 are the first. -/
theorem cat3_apply0 (h : k.val < 256) :
    concatenate S768x256 0 ([⟨S256x256, x0⟩, ⟨S256x256, x1⟩, ⟨S256x256, x2⟩] : List ((s : Shape) × (s.Idx → EReal)))
        concatenates_S256x256_S256x256_S256x256_S768x256_d0 (ix2 k q) = x0 (ix2 ⟨k.val, h⟩ q) :=
  concatenate_apply_piece (t := S768x256) (0 : Fin 2) [⟨S256x256, x0⟩, ⟨S256x256, x1⟩, ⟨S256x256, x2⟩]
    concatenates_S256x256_S256x256_S256x256_S768x256_d0 (ix2 k q)
    0 (Nat.zero_lt_succ _) S256x256 x0 rfl rfl 0 rfl (ix2 ⟨k.val, h⟩ q)
    (fun b hb => match b, hb with
      | ⟨0, _⟩, hb => absurd rfl hb
      | ⟨1, _⟩, _ => rfl)
    (by show 0 + k.val = k.val; omega)

/-- Rows 256–511 are the second. -/
theorem cat3_apply1 (h1 : 256 ≤ k.val) (h2 : k.val < 512) :
    concatenate S768x256 0 ([⟨S256x256, x0⟩, ⟨S256x256, x1⟩, ⟨S256x256, x2⟩] : List ((s : Shape) × (s.Idx → EReal)))
        concatenates_S256x256_S256x256_S256x256_S768x256_d0 (ix2 k q) = x1 (ix2 ⟨k.val - 256, by omega⟩ q) :=
  concatenate_apply_piece (t := S768x256) (0 : Fin 2) [⟨S256x256, x0⟩, ⟨S256x256, x1⟩, ⟨S256x256, x2⟩]
    concatenates_S256x256_S256x256_S256x256_S768x256_d0 (ix2 k q)
    1 (Nat.succ_lt_succ (Nat.zero_lt_succ _)) S256x256 x1 rfl rfl 256 rfl (ix2 ⟨k.val - 256, by omega⟩ q)
    (fun b hb => match b, hb with
      | ⟨0, _⟩, hb => absurd rfl hb
      | ⟨1, _⟩, _ => rfl)
    (by show 256 + (k.val - 256) = k.val; omega)

/-- Rows 512–767 are the third. -/
theorem cat3_apply2 (h : 512 ≤ k.val) :
    concatenate S768x256 0 ([⟨S256x256, x0⟩, ⟨S256x256, x1⟩, ⟨S256x256, x2⟩] : List ((s : Shape) × (s.Idx → EReal)))
        concatenates_S256x256_S256x256_S256x256_S768x256_d0 (ix2 k q)
      = x2 (ix2 ⟨k.val - 512, by have := k.isLt; omega⟩ q) :=
  concatenate_apply_piece (t := S768x256) (0 : Fin 2) [⟨S256x256, x0⟩, ⟨S256x256, x1⟩, ⟨S256x256, x2⟩]
    concatenates_S256x256_S256x256_S256x256_S768x256_d0 (ix2 k q)
    2 (Nat.succ_lt_succ (Nat.succ_lt_succ (Nat.zero_lt_succ _))) S256x256 x2 rfl rfl 512 rfl
    (ix2 ⟨k.val - 512, by have := k.isLt; omega⟩ q)
    (fun b hb => match b, hb with
      | ⟨0, _⟩, hb => absurd rfl hb
      | ⟨1, _⟩, _ => rfl)
    (by show 512 + (k.val - 512) = k.val; omega)

end Cat3

/-- The concatenation of w0 + w2, w1 − w2 and w3 (wᵢ the i-th block of 256 rows of T) read at (k, q). -/
theorem fold_apply (T : FVec Ideal S1024x256 .f32) (k : Fin 768) (q : Fin 256) :
    truncf (F := Ideal) .bf16 (concatenate S768x256 0
        [⟨S256x256, addf (extractStridedSlice S256x256 ![0, 0] T slices_S1024x256_S256x256_0_0)
            (extractStridedSlice S256x256 ![512, 0] T slices_S1024x256_S256x256_512_0)⟩,
         ⟨S256x256, subf (extractStridedSlice S256x256 ![256, 0] T slices_S1024x256_S256x256_256_0)
            (extractStridedSlice S256x256 ![512, 0] T slices_S1024x256_S256x256_512_0)⟩,
         ⟨S256x256, extractStridedSlice S256x256 ![768, 0] T slices_S1024x256_S256x256_768_0⟩]
        concatenates_S256x256_S256x256_S256x256_S768x256_d0) bitsLt_bf16_f32 (ix2 k q)
      = if h : k.val < 256 then T (ix2 ⟨k.val, by omega⟩ q) + T (ix2 ⟨512 + k.val, by omega⟩ q)
        else if h2 : k.val < 512 then T (ix2 ⟨k.val, by omega⟩ q) - T (ix2 ⟨256 + k.val, by omega⟩ q)
        else T (ix2 ⟨256 + k.val, by have := k.isLt; omega⟩ q) := by
  refine (truncf_apply _ bitsLt_bf16_f32 (ix2 k q)).trans ?_
  by_cases h : k.val < 256
  · rw [dif_pos h]
    refine (cat3_apply0 _ _ _ k q h).trans ?_
    show extractStridedSlice S256x256 ![0, 0] T slices_S1024x256_S256x256_0_0 (ix2 ⟨k.val, h⟩ q)
        + extractStridedSlice S256x256 ![512, 0] T slices_S1024x256_S256x256_512_0 (ix2 ⟨k.val, h⟩ q) = _
    rw [slice_apply T 0 slices_S1024x256_S256x256_0_0 ⟨k.val, h⟩ q ⟨k.val, by omega⟩ (by show k.val = 0 + k.val; omega),
      slice_apply T 512 slices_S1024x256_S256x256_512_0 ⟨k.val, h⟩ q ⟨512 + k.val, by omega⟩ rfl]
  · rw [dif_neg h]
    by_cases h2 : k.val < 512
    · rw [dif_pos h2]
      refine (cat3_apply1 _ _ _ k q (by omega) h2).trans ?_
      show extractStridedSlice S256x256 ![256, 0] T slices_S1024x256_S256x256_256_0 (ix2 ⟨k.val - 256, by omega⟩ q)
          - extractStridedSlice S256x256 ![512, 0] T slices_S1024x256_S256x256_512_0 (ix2 ⟨k.val - 256, by omega⟩ q) = _
      rw [slice_apply T 256 slices_S1024x256_S256x256_256_0 ⟨k.val - 256, by omega⟩ q ⟨k.val, by omega⟩
          (by show k.val = 256 + (k.val - 256); omega),
        slice_apply T 512 slices_S1024x256_S256x256_512_0 ⟨k.val - 256, by omega⟩ q ⟨256 + k.val, by omega⟩
          (by show 256 + k.val = 512 + (k.val - 256); omega)]
    · rw [dif_neg h2]
      refine (cat3_apply2 _ _ _ k q (by omega)).trans ?_
      exact slice_apply T 768 slices_S1024x256_S256x256_768_0 ⟨k.val - 512, by have := k.isLt; omega⟩ q
        ⟨256 + k.val, by have := k.isLt; omega⟩ (by show 256 + k.val = 768 + (k.val - 512); omega)

theorem v8_e : (V m c main_v8 : S768x256.Idx → EReal)
    = truncf (F := Ideal) .bf16 (concatenate S768x256 0
        [⟨S256x256, addf
            (extractStridedSlice S256x256 ![0, 0]
              (transpose S1024x256 [1, 0] (m ((c : Thread nD τ).loc main_arg3) : FVec Ideal S256x1024 .f32)
                transposes_S256x1024_S1024x256_1_0) slices_S1024x256_S256x256_0_0)
            (extractStridedSlice S256x256 ![512, 0]
              (transpose S1024x256 [1, 0] (m ((c : Thread nD τ).loc main_arg3) : FVec Ideal S256x1024 .f32)
                transposes_S256x1024_S1024x256_1_0) slices_S1024x256_S256x256_512_0)⟩,
         ⟨S256x256, subf
            (extractStridedSlice S256x256 ![256, 0]
              (transpose S1024x256 [1, 0] (m ((c : Thread nD τ).loc main_arg3) : FVec Ideal S256x1024 .f32)
                transposes_S256x1024_S1024x256_1_0) slices_S1024x256_S256x256_256_0)
            (extractStridedSlice S256x256 ![512, 0]
              (transpose S1024x256 [1, 0] (m ((c : Thread nD τ).loc main_arg3) : FVec Ideal S256x1024 .f32)
                transposes_S256x1024_S1024x256_1_0) slices_S1024x256_S256x256_512_0)⟩,
         ⟨S256x256, extractStridedSlice S256x256 ![768, 0]
              (transpose S1024x256 [1, 0] (m ((c : Thread nD τ).loc main_arg3) : FVec Ideal S256x1024 .f32)
                transposes_S256x1024_S1024x256_1_0) slices_S1024x256_S256x256_768_0⟩]
        concatenates_S256x256_S256x256_S256x256_S768x256_d0) bitsLt_bf16_f32 := by
  dsimp only [V, hostOps0]
  after_results
  rfl

/-- The folded gate weights, as a matrix: the fold of the gate weights. -/
theorem v8_mat : mat (V m c main_v8 : S768x256.Idx → EReal)
    = Cert.Spec.foldW (mat (m ((c : Thread nD τ).loc main_arg3) : S256x1024.Idx → EReal)) := by
  funext k q
  show (V m c main_v8 : S768x256.Idx → EReal) (ix2 k q) = _
  rw [v8_e]
  refine (fold_apply _ k q).trans ?_
  unfold Cert.Spec.foldW
  by_cases h : k.val < 256
  · rw [dif_pos h, dif_pos h]
    exact congrArg₂ (· + ·) (transpose1024_apply _ _ q) (transpose1024_apply _ _ q)
  · rw [dif_neg h, dif_neg h]
    by_cases h2 : k.val < 512
    · rw [dif_pos h2, dif_pos h2]
      exact congrArg₂ (· - ·) (transpose1024_apply _ _ q) (transpose1024_apply _ _ q)
    · rw [dif_neg h2, dif_neg h2]
      exact transpose1024_apply _ _ q

end Cert.KernelIdeal.HostPrefix

end
-- ==== Proof.KernelValue.lean ====
/-
  The result array of the idealized kernel, as one function of the argument arrays.

  Point t of the grid writes back rows 1000·t … 1000·t + 999 of the result. Row p of what it writes is the node function
  of row p of the three node blocks — rows 1000·t + p of f, h_v, h_v' — and of the weight blocks, which are the whole
  staged arrays at every point: the folded gate weights, the transposed recurrent weights and the bias rows, each a
  known function of the argument arrays. So point t writes block t of one whole-array function, Spec.outK of the
  arguments; the 200 blocks tile the array (row r lies in block r / 1000), hence the array ends equal to it.
-/
import proofs.«169519_j65833258713547_2_alg».proof.Proof.FrameI
import proofs.«169519_j65833258713547_2_alg».proof.Proof.Payload
import proofs.«169519_j65833258713547_2_alg».proof.Proof.HostPrefix
import proofs.«169519_j65833258713547_2_alg».proof.Proof.Spec
import Idealize.ShloMosaic.Lib.Pipeline.Value

noncomputable section

namespace Cert.KernelIdeal.Val

open Cert.KernelIdeal Cert.KernelIdeal.Gen Cert.KernelIdeal.Fr Cert.DenseRows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the three node windows and the result move one block of rows per point; the
    six weight windows stay at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem t_lt (t : Fin cfg0.N) : t.val < 200 := lt_of_lt_of_eq t.isLt N_0

/-- Row p of block t is row 1000·t + p of the array. -/
def rowOf (t : Fin cfg0.N) (p : Fin 1000) : Fin 200000 := ⟨t.val * 1000 + p.val, by have := t_lt t; omega⟩

/-! ## The blocks the body reads, at an index -/

theorem blk0 (c : Dev nD) (t : Fin cfg0.N) (p : Fin 1000) (q : Fin 256) :
    (iblk m c 0 t : S1000x256.Idx → EReal) (ix2 p q) = (m ((c : Thread nD τ).loc main_arg0) : S200000x256.Idx → EReal) (ix2 (rowOf t p) q) := by
  rw [← V_main_arg0 m c]
  show V m c main_arg0 (((cfg0.win 0).blk t).view.emb (ix2 p q)) = V m c main_arg0 (ix2 (rowOf t p) q)
  refine congrArg (V m c main_arg0) ?_
  obtain ⟨⟨a0, a1⟩, ⟨b0, b1⟩, ⟨c0, c1⟩, -⟩ := idx_facts t
  funext a; apply Fin.ext
  match a with
  | ⟨0, _⟩ => show win0_0.index t (0 : Fin 2) * 1000 + 1 * p.val = t.val * 1000 + p.val; omega
  | ⟨1, _⟩ => show win0_0.index t (1 : Fin 2) * 256 + 1 * q.val = q.val; omega

theorem blk1 (c : Dev nD) (t : Fin cfg0.N) (p : Fin 1000) (q : Fin 256) :
    (iblk m c 1 t : S1000x256.Idx → EReal) (ix2 p q) = (m ((c : Thread nD τ).loc main_arg1) : S200000x256.Idx → EReal) (ix2 (rowOf t p) q) := by
  rw [← V_main_arg1 m c]
  show V m c main_arg1 (((cfg0.win 1).blk t).view.emb (ix2 p q)) = V m c main_arg1 (ix2 (rowOf t p) q)
  refine congrArg (V m c main_arg1) ?_
  obtain ⟨⟨a0, a1⟩, ⟨b0, b1⟩, ⟨c0, c1⟩, -⟩ := idx_facts t
  funext a; apply Fin.ext
  match a with
  | ⟨0, _⟩ => show win0_1.index t (0 : Fin 2) * 1000 + 1 * p.val = t.val * 1000 + p.val; omega
  | ⟨1, _⟩ => show win0_1.index t (1 : Fin 2) * 256 + 1 * q.val = q.val; omega

theorem blk2 (c : Dev nD) (t : Fin cfg0.N) (p : Fin 1000) (q : Fin 256) :
    (iblk m c 2 t : S1000x256.Idx → EReal) (ix2 p q) = (m ((c : Thread nD τ).loc main_arg2) : S200000x256.Idx → EReal) (ix2 (rowOf t p) q) := by
  rw [← V_main_arg2 m c]
  show V m c main_arg2 (((cfg0.win 2).blk t).view.emb (ix2 p q)) = V m c main_arg2 (ix2 (rowOf t p) q)
  refine congrArg (V m c main_arg2) ?_
  obtain ⟨⟨a0, a1⟩, ⟨b0, b1⟩, ⟨c0, c1⟩, -⟩ := idx_facts t
  funext a; apply Fin.ext
  match a with
  | ⟨0, _⟩ => show win0_2.index t (0 : Fin 2) * 1000 + 1 * p.val = t.val * 1000 + p.val; omega
  | ⟨1, _⟩ => show win0_2.index t (1 : Fin 2) * 256 + 1 * q.val = q.val; omega

theorem blk3 (c : Dev nD) (t : Fin cfg0.N) (k : Fin 768) (q : Fin 256) :
    (iblk m c 3 t : S768x256.Idx → EReal) (ix2 k q) = (V m c main_v8 : S768x256.Idx → EReal) (ix2 k q) := by
  show V m c main_v8 (((cfg0.win 3).blk t).view.emb (ix2 k q)) = V m c main_v8 (ix2 k q)
  refine congrArg (V m c main_v8) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_3.index t (0 : Fin 2) * 768 + 1 * k.val = k.val; omega
  | ⟨1, _⟩ => show win0_3.index t (1 : Fin 2) * 256 + 1 * q.val = q.val; omega

theorem blk4 (c : Dev nD) (t : Fin cfg0.N) (k : Fin 256) (q : Fin 768) :
    (iblk m c 4 t : S256x768.Idx → EReal) (ix2 k q) = (V m c main_v10 : S256x768.Idx → EReal) (ix2 k q) := by
  show V m c main_v10 (((cfg0.win 4).blk t).view.emb (ix2 k q)) = V m c main_v10 (ix2 k q)
  refine congrArg (V m c main_v10) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_4.index t (0 : Fin 2) * 256 + 1 * k.val = k.val; omega
  | ⟨1, _⟩ => show win0_4.index t (1 : Fin 2) * 768 + 1 * q.val = q.val; omega

theorem blk5 (c : Dev nD) (t : Fin cfg0.N) (k : Fin 256) (q : Fin 768) :
    (iblk m c 5 t : S256x768.Idx → EReal) (ix2 k q) = (V m c main_v12 : S256x768.Idx → EReal) (ix2 k q) := by
  show V m c main_v12 (((cfg0.win 5).blk t).view.emb (ix2 k q)) = V m c main_v12 (ix2 k q)
  refine congrArg (V m c main_v12) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_5.index t (0 : Fin 2) * 256 + 1 * k.val = k.val; omega
  | ⟨1, _⟩ => show win0_5.index t (1 : Fin 2) * 768 + 1 * q.val = q.val; omega

theorem blk6 (c : Dev nD) (t : Fin cfg0.N) (k : Fin 1) (q : Fin 256) :
    (iblk m c 6 t : S1x256.Idx → EReal) (ix2 k q) = (V m c main_v13 : S1x256.Idx → EReal) (ix2 k q) := by
  show V m c main_v13 (((cfg0.win 6).blk t).view.emb (ix2 k q)) = V m c main_v13 (ix2 k q)
  refine congrArg (V m c main_v13) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_6.index t (0 : Fin 2) * 1 + 1 * k.val = k.val; omega
  | ⟨1, _⟩ => show win0_6.index t (1 : Fin 2) * 256 + 1 * q.val = q.val; omega

theorem blk7 (c : Dev nD) (t : Fin cfg0.N) (k : Fin 1) (q : Fin 768) :
    (iblk m c 7 t : S1x768.Idx → EReal) (ix2 k q) = (V m c main_v14 : S1x768.Idx → EReal) (ix2 k q) := by
  show V m c main_v14 (((cfg0.win 7).blk t).view.emb (ix2 k q)) = V m c main_v14 (ix2 k q)
  refine congrArg (V m c main_v14) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_7.index t (0 : Fin 2) * 1 + 1 * k.val = k.val; omega
  | ⟨1, _⟩ => show win0_7.index t (1 : Fin 2) * 768 + 1 * q.val = q.val; omega

theorem blk8 (c : Dev nD) (t : Fin cfg0.N) (k : Fin 1) (q : Fin 768) :
    (iblk m c 8 t : S1x768.Idx → EReal) (ix2 k q) = (V m c main_v15 : S1x768.Idx → EReal) (ix2 k q) := by
  show V m c main_v15 (((cfg0.win 8).blk t).view.emb (ix2 k q)) = V m c main_v15 (ix2 k q)
  refine congrArg (V m c main_v15) ?_
  obtain ⟨-, -, -, -, ⟨e3a, e3b⟩, ⟨e4a, e4b⟩, ⟨e5a, e5b⟩, ⟨e6a, e6b⟩, ⟨e7a, e7b⟩, ⟨e8a, e8b⟩⟩ := idx_facts t
  funext a; apply Fin.ext
  match a with
  | ⟨0, _⟩ => show win0_8.index t (0 : Fin 2) * 1 + 1 * k.val = k.val; omega
  | ⟨1, _⟩ => show win0_8.index t (1 : Fin 2) * 768 + 1 * q.val = q.val; omega

/-! ## One block of the result, over plain arrays -/

/-- If the node blocks are rows T·1000 … of f, h_v, h_v' and the weight blocks are the folded and transposed weights
    and the bias rows, the stored value at (p, q) is the whole-array function at (T·1000 + p, q). -/
theorem block_eq (x0 x1 x2 : Vec Ideal S1000x256 .f32) (x3 : Vec Ideal S768x256 .bf16) (x4 x5 : Vec Ideal S256x768 .bf16)
    (x6 : Vec Ideal S1x256 .f32) (x7 x8 : Vec Ideal S1x768 .f32)
    (f hv hv2 : S200000x256.Idx → EReal) (Wz : S256x1024.Idx → EReal) (bz : S256.Idx → EReal)
    (Wih Whh : S768x256.Idx → EReal) (bih bhh : S768.Idx → EReal) (ro : Fin 1000 → Fin 200000)
    (h0 : ∀ p, row x0 p = row f (ro p)) (h1 : ∀ p, row x1 p = row hv (ro p)) (h2 : ∀ p, row x2 p = row hv2 (ro p))
    (h3 : mat x3 = Cert.Spec.foldW (mat Wz)) (h4 : mat x4 = Cert.Spec.matT Wih) (h5 : mat x5 = Cert.Spec.matT Whh)
    (h6 : Cert.Spec.row0 x6 = vec bz) (h7 : Cert.Spec.row0 x7 = vec bih) (h8 : Cert.Spec.row0 x8 = vec bhh)
    (p : Fin 1000) (q : Fin 256) :
    k0_pay1 (F := Ideal) (k0_pay2 x1 x2 x3 x6) (k0_pay3 x1 x2 x3 x6) (k0_pay4 x5) (k0_pay5 x0 x4 x7) x8 (ix2 p q)
      = Cert.Spec.outK f hv hv2 Wz bz Wih Whh bih bhh (ix2 (ro p) q) := by
  rw [Cert.KernelIdeal.Payload.pay_apply, h0, h1, h2, h3, h4, h5, h6, h7, h8]
  rfl

/-! ## What each point writes back, the cover, the final array -/

/-- The result array as a function of the launched argument arrays. -/
def G (c : Dev nD) : S200000x256.Idx → EReal :=
  Cert.Spec.outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Point t writes back block t of G. -/
theorem flushed9_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S1000x256) hz, View.ld_unit_zero (S := S768x256) hz, View.ld_unit_zero (S := S256x768) hz,
    View.ld_unit_zero (S := S1x256) hz, View.ld_unit_zero (S := S1x768) hz]
  funext j
  obtain ⟨p, q, rfl⟩ : ∃ (p : Fin 1000) (q : Fin 256), j = ix2 p q := ⟨j 0, j 1, eq_ix2 j⟩
  have hemb : ((cfg0.win 9).blk t).view.emb (ix2 p q) = ix2 (rowOf t p) q := by
    obtain ⟨-, -, -, ⟨d0, d1⟩, -⟩ := idx_facts t
    funext a; apply Fin.ext
    match a with
    | ⟨0, _⟩ => show win0_9.index t (0 : Fin 2) * 1000 + 1 * p.val = t.val * 1000 + p.val; omega
    | ⟨1, _⟩ => show win0_9.index t (1 : Fin 2) * 256 + 1 * q.val = q.val; omega
  show k0_pay1 (F := Ideal) (k0_pay2 (iblk m c 1 t) (iblk m c 2 t) (iblk m c 3 t) (iblk m c 6 t))
      (k0_pay3 (iblk m c 1 t) (iblk m c 2 t) (iblk m c 3 t) (iblk m c 6 t)) (k0_pay4 (iblk m c 5 t))
      (k0_pay5 (iblk m c 0 t) (iblk m c 4 t) (iblk m c 7 t)) (iblk m c 8 t) (ix2 p q)
    = G m c (((cfg0.win 9).blk t).view.emb (ix2 p q))
  rw [hemb]
  unfold G
  refine block_eq (iblk m c 0 t) (iblk m c 1 t) (iblk m c 2 t) (iblk m c 3 t) (iblk m c 4 t) (iblk m c 5 t) (iblk m c 6 t)
    (iblk m c 7 t) (iblk m c 8 t) _ _ _ _ _ _ _ _ _ (rowOf t) ?_ ?_ ?_ ?_ ?_ ?_ ?_ ?_ ?_ p q
  · intro p'; funext q'; exact blk0 m c t p' q'
  · intro p'; funext q'; exact blk1 m c t p' q'
  · intro p'; funext q'; exact blk2 m c t p' q'
  · rw [← Cert.KernelIdeal.HostPrefix.v8_mat m c]; funext k q'; exact blk3 m c t k q'
  · rw [← Cert.KernelIdeal.HostPrefix.v10_mat m c]; funext k q'; exact blk4 m c t k q'
  · rw [← Cert.KernelIdeal.HostPrefix.v12_mat m c]; funext k q'; exact blk5 m c t k q'
  · rw [← Cert.KernelIdeal.HostPrefix.v13_row m c]; funext q'; exact blk6 m c t 0 q'
  · rw [← Cert.KernelIdeal.HostPrefix.v14_row m c]; funext q'; exact blk7 m c t 0 q'
  · rw [← Cert.KernelIdeal.HostPrefix.v15_row m c]; funext q'; exact blk8 m c t 0 q'

/-- An index of the array is in point t's block iff each coordinate is in the block's range on its axis. -/
theorem mem_blk9 (t : Fin cfg0.N) (i : S200000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v16).slice (win0_9.rect t)).set ↔ _
  rw [View.set_slice_whole, Rect.mem_set_unit]
  exact Iff.rfl

/-- Row r lies in the block of point r / 1000. -/
theorem cover9 (i : S200000x256.Idx) :
    ∃ t : Fin cfg0.N, (cfg0.win 9).flush t = true ∧ i ∈ ((cfg0.win 9).blk t).view.set := by
  have hi0 : (i 0).val < 200000 := (i 0).isLt
  have hi1 : (i 1).val < 256 := (i 1).isLt
  have hN : (i 0).val / 1000 < cfg0.N := by
    have : (i 0).val / 1000 < 200 := by omega
    exact lt_of_lt_of_eq this N_0.symm
  obtain ⟨-, -, -, ⟨d0, d1⟩, -⟩ := idx_facts ⟨(i 0).val / 1000, hN⟩
  refine ⟨⟨(i 0).val / 1000, hN⟩, flush0_9 _, ?_⟩
  rw [mem_blk9]
  intro a
  match a with
  | ⟨0, _⟩ =>
    show win0_9.index ⟨(i 0).val / 1000, hN⟩ (0 : Fin 2) * 1000 ≤ (i 0).val ∧ (i 0).val < win0_9.index ⟨(i 0).val / 1000, hN⟩ (0 : Fin 2) * 1000 + 1000
    have e : win0_9.index ⟨(i 0).val / 1000, hN⟩ (0 : Fin 2) = (i 0).val / 1000 := d0
    omega
  | ⟨1, _⟩ =>
    show win0_9.index ⟨(i 0).val / 1000, hN⟩ (1 : Fin 2) * 256 ≤ (i 1).val ∧ (i 1).val < win0_9.index ⟨(i 0).val / 1000, hN⟩ (1 : Fin 2) * 256 + 256
    omega

/-- The result array after the run is G. -/
theorem final9 (c : Dev nD) : (dats m 0 c).arrAt 9 cfg0.N = G m c :=
  (dats m 0 c).arrAt_eq_of_cover 9 (G m c) (fun t _ => flushed9_eq m c t) cover9

/-! ## The run, read -/

/-- Every weakly fair execution terminates with the result array at G and the arguments as launched. -/
theorem run : θ_run defs (onTc (τ := τ) (main (F := Ideal))) ⟨m, fun _ => 0, ρ⟩ fun r => ∀ c : Dev nD,
      r.2.mem ((c.tc : Thread nD τ).loc main_v16) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Val

end
-- ==== Proof.RefValue.lean ====
/-
  The reference program computes the specification.

  The reference forms, for every node r, the concatenated row [a, b, a − b, a·b] of its two feature rows a = h_v r and
  b = h_v' r, multiplies it against Wzᵀ and adds bz (the gate's pre-activation s, one product of length 1024), takes
  z = 1 / (1 + exp (−s)), fuses the rows as z·a + (1 − z)·b, applies the two dense layers f · Wihᵀ + bih and
  fuse · Whhᵀ + bhh, reads each in three thirds (columns 0–255, 256–511, 512–767), and combines them as
  (1 − u)·n + u·fuse with r = logistic (gi₀ + gh₀), u = logistic (gi₁ + gh₁), n = tanh (gi₂ + r·gh₂).

  Each step is read at an entry (r, q) of the array it writes: the concatenation by the piece that holds column k, the
  products as sums over the contracted coordinate, the bias broadcasts and the slices by their index maps, and
  1 / (1 + exp (−s)) with the f32 word of 1.0 as the logistic function. Read this way, entry (r, q) of the result
  depends on row r of the three feature arrays alone and is the recurrent cell of that node.
-/
import proofs.«169519_j65833258713547_2_alg».proof.Proof.Gen.ReferenceIdeal.Read
import proofs.«169519_j65833258713547_2_alg».proof.Proof.Spec
import proofs.«169519_j65833258713547_2_alg».proof.Proof.LibDenseRows
import Idealize.ShloMosaic.Lib.IdealHost
import Idealize.ShloMosaic.Lib.Pipeline.Value
import Idealize.ShloMosaic.Lib.ValueIdx

noncomputable section

namespace Cert.RefValue

open Idealize.ShloMosaic Idealize.ShloMosaic.ValueIdx Cert.DenseRows Cert.ReferenceIdeal Cert.ReferenceIdeal.Gen
  Cert.ReferenceIdeal.Read

/-- The concatenated array read at (r, k): entry k of the concatenated feature row of node r. -/
theorem cat_read (x1 x2 : (⟨S200000x256, .f32⟩ : BufTy).Contents (Elt Ideal)) (r : Fin 200000) (k : Fin 1024) :
    val_main_v2 (F := Ideal) x1 x2 (ix2 r k) = Cert.Spec.cat4 (row x1 r) (row x2 r) k := by
  unfold val_main_v2 Cert.Spec.cat4
  by_cases h : k.val < 256
  · rw [dif_pos h]
    exact concatenate_apply_piece (1 : Fin 2) _ _ (ix2 r k) 0 (by show 0 < 4; omega) S200000x256 x1 rfl rfl 0 rfl
      (ix2 r ⟨k.val, h⟩) (fun b hb => match b with
        | ⟨0, _⟩ => rfl
        | ⟨1, _⟩ => absurd rfl hb) (Nat.zero_add _)
  · rw [dif_neg h]
    by_cases h2 : k.val < 512
    · rw [dif_pos h2]
      exact concatenate_apply_piece (1 : Fin 2) _ _ (ix2 r k) 1 (by show 1 < 4; omega) S200000x256 x2 rfl rfl 256 rfl
        (ix2 r ⟨k.val - 256, by omega⟩) (fun b hb => match b with
          | ⟨0, _⟩ => rfl
          | ⟨1, _⟩ => absurd rfl hb) (by show 256 + (k.val - 256) = k.val; omega)
    · rw [dif_neg h2]
      by_cases h3 : k.val < 768
      · rw [dif_pos h3]
        exact concatenate_apply_piece (1 : Fin 2) _ _ (ix2 r k) 2 (by show 2 < 4; omega) S200000x256
          (val_main_v0 (F := Ideal) x1 x2) rfl rfl 512 rfl
          (ix2 r ⟨k.val - 512, by omega⟩) (fun b hb => match b with
            | ⟨0, _⟩ => rfl
            | ⟨1, _⟩ => absurd rfl hb) (by show 512 + (k.val - 512) = k.val; omega)
      · rw [dif_neg h3]
        exact concatenate_apply_piece (1 : Fin 2) _ _ (ix2 r k) 3 (by show 3 < 4; omega) S200000x256
          (val_main_v1 (F := Ideal) x1 x2) rfl rfl 768 rfl
          (ix2 r ⟨k.val - 768, by have := k.isLt; omega⟩) (fun b hb => match b with
            | ⟨0, _⟩ => rfl
            | ⟨1, _⟩ => absurd rfl hb) (by show 768 + (k.val - 768) = k.val; omega)

/-- The gate's pre-activation read at (r, q): one product of the concatenated row of node r against the weights, plus the bias. -/
theorem gate_read (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (r : Fin 200000) (q : Fin 256) :
    val_main_v7 (F := Ideal) x1 x2 x3 x4 (ix2 r q)
      = Cert.Spec.gateR (row x1 r) (row x2 r) (mat x3) (vec x4) q := by
  rw [val_main_v7_apply, val_main_v4_apply, val_main_v6_apply, val_main_v5_apply]
  show (∑ k : Fin 1024, _) + _ = (∑ k : Fin 1024, Cert.Spec.cat4 (row x1 r) (row x2 r) k * mat x3 q k) + vec x4 q
  congr 1
  · refine Finset.sum_congr rfl fun k _ => ?_
    have e1 : lidx_main_v4 (ix2 r q) k = ix2 r k := funext fun a => match a with
      | ⟨0, _⟩ => rfl
      | ⟨1, _⟩ => rfl
    have e2 : idx_main_v3 (ridx_main_v4 (ix2 r q) k) = ix2 q k := funext fun a => match a with
      | ⟨0, _⟩ => rfl
      | ⟨1, _⟩ => rfl
    rw [val_main_v3_apply, e1, e2, cat_read]
    rfl
  · exact congrArg x4 (funext fun a => match a with
      | ⟨0, _⟩ => rfl)

/-- The host's sigmoid of the gate, spelt divide(1, 1 + exp(−s)) with the f32 word of 1.0, is the logistic function. -/
theorem sig_gate (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (i : S200000x256.Idx) :
    val_main_v13 (F := Ideal) x1 x2 x3 x4 i = Ideal.logistic (val_main_v7 (F := Ideal) x1 x2 x3 x4 i) := by
  rw [val_main_v13_apply, val_main_v12_apply, val_main_cst_0_apply, val_main_v11_apply, val_main_v10_apply,
    val_main_cst_apply, val_main_v9_apply, val_main_v8_apply]
  show Ideal.div (Ideal.ofBits .f32 0x3F800000#32) (Ideal.ofBits .f32 0x3F800000#32 + Ideal.exp (-_)) = _
  rw [Ideal.ofBits_one_f32]
  rfl

/-- The fused row read at (r, j). -/
theorem fuse_read (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (r : Fin 200000) (j : Fin 256) :
    val_main_v18 (F := Ideal) x1 x2 x3 x4 (ix2 r j)
      = Cert.Spec.fuseRow (Cert.Spec.gateR (row x1 r) (row x2 r) (mat x3) (vec x4)) (row x1 r) (row x2 r) j := by
  rw [val_main_v18_apply, val_main_v14_apply, val_main_v17_apply, val_main_v16_apply, val_main_v15_apply,
    val_main_cst_1_apply, sig_gate, gate_read]
  rfl

/-- Row r of the fused array. -/
theorem fuse_row (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (r : Fin 200000) :
    row (val_main_v18 (F := Ideal) x1 x2 x3 x4) r
      = Cert.Spec.fuseRow (Cert.Spec.gateR (row x1 r) (row x2 r) (mat x3) (vec x4)) (row x1 r) (row x2 r) :=
  funext fun j => fuse_read x1 x2 x3 x4 r j

/-- A transposed [768, 256] array, as a matrix, is the matrix of the transpose. -/
theorem mat_transpose5 (x5 : (⟨S768x256, .f32⟩ : BufTy).Contents (Elt Ideal)) :
    mat (val_main_v19 (F := Ideal) x5) = Cert.Spec.matT x5 := by
  funext j k
  show val_main_v19 (F := Ideal) x5 (ix2 j k) = x5 (ix2 k j)
  rw [val_main_v19_apply]
  exact congrArg x5 (funext fun a => match a with
    | ⟨0, _⟩ => rfl
    | ⟨1, _⟩ => rfl)

theorem mat_transpose6 (x6 : (⟨S768x256, .f32⟩ : BufTy).Contents (Elt Ideal)) :
    mat (val_main_v24 (F := Ideal) x6) = Cert.Spec.matT x6 := by
  funext j k
  show val_main_v24 (F := Ideal) x6 (ix2 j k) = x6 (ix2 k j)
  rw [val_main_v24_apply]
  exact congrArg x6 (funext fun a => match a with
    | ⟨0, _⟩ => rfl
    | ⟨1, _⟩ => rfl)

/-- Row r of the input layer f · Wihᵀ + bih. -/
theorem gi_row (x0 : (⟨S200000x256, .f32⟩ : BufTy).Contents (Elt Ideal))
    (x5 : (⟨S768x256, .f32⟩ : BufTy).Contents (Elt Ideal)) (x7 : (⟨S768, .f32⟩ : BufTy).Contents (Elt Ideal))
    (r : Fin 200000) :
    row (val_main_v23 (F := Ideal) x0 x5 x7) r = affine (row x0 r) (Cert.Spec.matT x5) (vec x7) := by
  unfold val_main_v23 val_main_v20 val_main_v22 val_main_v21
  refine (row_dotGeneral_bias _ rfl none x0 (val_main_v19 (F := Ideal) x5) x7 _ _ r).trans ?_
  rw [mat_transpose5]

/-- Row r of the hidden layer fuse · Whhᵀ + bhh. -/
theorem gh_row (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x6 : (⟨S768x256, .f32⟩ : BufTy).Contents (Elt Ideal)) (x8 : (⟨S768, .f32⟩ : BufTy).Contents (Elt Ideal))
    (r : Fin 200000) :
    row (val_main_v28 (F := Ideal) x1 x2 x3 x4 x6 x8) r
      = affine (Cert.Spec.fuseRow (Cert.Spec.gateR (row x1 r) (row x2 r) (mat x3) (vec x4)) (row x1 r) (row x2 r))
          (Cert.Spec.matT x6) (vec x8) := by
  unfold val_main_v28 val_main_v25 val_main_v27 val_main_v26
  refine (row_dotGeneral_bias _ rfl none (val_main_v18 (F := Ideal) x1 x2 x3 x4) (val_main_v24 (F := Ideal) x6) x8 _ _ r).trans ?_
  rw [mat_transpose6, fuse_row]

/-- The first third of the input layer read at (r, q). -/
theorem gi0_read (x0 : (⟨S200000x256, .f32⟩ : BufTy).Contents (Elt Ideal))
    (x5 : (⟨S768x256, .f32⟩ : BufTy).Contents (Elt Ideal)) (x7 : (⟨S768, .f32⟩ : BufTy).Contents (Elt Ideal))
    (r : Fin 200000) (q : Fin 256) :
    val_main_v29 (F := Ideal) x0 x5 x7 (ix2 r q)
      = affine (row x0 r) (Cert.Spec.matT x5) (vec x7) (Cert.Spec.c0 q) := by
  rw [val_main_v29_apply]
  have e : idx_main_v29 (ix2 r q) = ix2 r (Cert.Spec.c0 q) := funext fun a => match a with
    | ⟨0, _⟩ => rfl
    | ⟨1, _⟩ => rfl
  rw [e]
  exact congrFun (gi_row x0 x5 x7 r) (Cert.Spec.c0 q)

/-- The second third of the input layer read at (r, q). -/
theorem gi1_read (x0 : (⟨S200000x256, .f32⟩ : BufTy).Contents (Elt Ideal))
    (x5 : (⟨S768x256, .f32⟩ : BufTy).Contents (Elt Ideal)) (x7 : (⟨S768, .f32⟩ : BufTy).Contents (Elt Ideal))
    (r : Fin 200000) (q : Fin 256) :
    val_main_v30 (F := Ideal) x0 x5 x7 (ix2 r q)
      = affine (row x0 r) (Cert.Spec.matT x5) (vec x7) (Cert.Spec.c1 q) := by
  rw [val_main_v30_apply]
  have e : idx_main_v30 (ix2 r q) = ix2 r (Cert.Spec.c1 q) := funext fun a => match a with
    | ⟨0, _⟩ => rfl
    | ⟨1, _⟩ => rfl
  rw [e]
  exact congrFun (gi_row x0 x5 x7 r) (Cert.Spec.c1 q)

/-- The third third of the input layer read at (r, q). -/
theorem gi2_read (x0 : (⟨S200000x256, .f32⟩ : BufTy).Contents (Elt Ideal))
    (x5 : (⟨S768x256, .f32⟩ : BufTy).Contents (Elt Ideal)) (x7 : (⟨S768, .f32⟩ : BufTy).Contents (Elt Ideal))
    (r : Fin 200000) (q : Fin 256) :
    val_main_v31 (F := Ideal) x0 x5 x7 (ix2 r q)
      = affine (row x0 r) (Cert.Spec.matT x5) (vec x7) (Cert.Spec.c2 q) := by
  rw [val_main_v31_apply]
  have e : idx_main_v31 (ix2 r q) = ix2 r (Cert.Spec.c2 q) := funext fun a => match a with
    | ⟨0, _⟩ => rfl
    | ⟨1, _⟩ => rfl
  rw [e]
  exact congrFun (gi_row x0 x5 x7 r) (Cert.Spec.c2 q)

/-- The first third of the hidden layer read at (r, q). -/
theorem gh0_read (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x6 : (⟨S768x256, .f32⟩ : BufTy).Contents (Elt Ideal)) (x8 : (⟨S768, .f32⟩ : BufTy).Contents (Elt Ideal))
    (r : Fin 200000) (q : Fin 256) :
    val_main_v32 (F := Ideal) x1 x2 x3 x4 x6 x8 (ix2 r q)
      = affine (Cert.Spec.fuseRow (Cert.Spec.gateR (row x1 r) (row x2 r) (mat x3) (vec x4)) (row x1 r) (row x2 r))
          (Cert.Spec.matT x6) (vec x8) (Cert.Spec.c0 q) := by
  rw [val_main_v32_apply]
  have e : idx_main_v32 (ix2 r q) = ix2 r (Cert.Spec.c0 q) := funext fun a => match a with
    | ⟨0, _⟩ => rfl
    | ⟨1, _⟩ => rfl
  rw [e]
  exact congrFun (gh_row x1 x2 x3 x4 x6 x8 r) (Cert.Spec.c0 q)

/-- The second third of the hidden layer read at (r, q). -/
theorem gh1_read (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x6 : (⟨S768x256, .f32⟩ : BufTy).Contents (Elt Ideal)) (x8 : (⟨S768, .f32⟩ : BufTy).Contents (Elt Ideal))
    (r : Fin 200000) (q : Fin 256) :
    val_main_v33 (F := Ideal) x1 x2 x3 x4 x6 x8 (ix2 r q)
      = affine (Cert.Spec.fuseRow (Cert.Spec.gateR (row x1 r) (row x2 r) (mat x3) (vec x4)) (row x1 r) (row x2 r))
          (Cert.Spec.matT x6) (vec x8) (Cert.Spec.c1 q) := by
  rw [val_main_v33_apply]
  have e : idx_main_v33 (ix2 r q) = ix2 r (Cert.Spec.c1 q) := funext fun a => match a with
    | ⟨0, _⟩ => rfl
    | ⟨1, _⟩ => rfl
  rw [e]
  exact congrFun (gh_row x1 x2 x3 x4 x6 x8 r) (Cert.Spec.c1 q)

/-- The third third of the hidden layer read at (r, q). -/
theorem gh2_read (x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x6 : (⟨S768x256, .f32⟩ : BufTy).Contents (Elt Ideal)) (x8 : (⟨S768, .f32⟩ : BufTy).Contents (Elt Ideal))
    (r : Fin 200000) (q : Fin 256) :
    val_main_v34 (F := Ideal) x1 x2 x3 x4 x6 x8 (ix2 r q)
      = affine (Cert.Spec.fuseRow (Cert.Spec.gateR (row x1 r) (row x2 r) (mat x3) (vec x4)) (row x1 r) (row x2 r))
          (Cert.Spec.matT x6) (vec x8) (Cert.Spec.c2 q) := by
  rw [val_main_v34_apply]
  have e : idx_main_v34 (ix2 r q) = ix2 r (Cert.Spec.c2 q) := funext fun a => match a with
    | ⟨0, _⟩ => rfl
    | ⟨1, _⟩ => rfl
  rw [e]
  exact congrFun (gh_row x1 x2 x3 x4 x6 x8 r) (Cert.Spec.c2 q)

/-- The reset gate's sigmoid, spelt divide(1, 1 + exp(−s)), is the logistic function. -/
theorem sig_reset (x0 x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x5 x6 : (⟨S768x256, .f32⟩ : BufTy).Contents (Elt Ideal)) (x7 x8 : (⟨S768, .f32⟩ : BufTy).Contents (Elt Ideal)) (i : S200000x256.Idx) :
    val_main_v41 (F := Ideal) x0 x1 x2 x3 x4 x5 x6 x7 x8 i
      = Ideal.logistic (val_main_v35 (F := Ideal) x0 x1 x2 x3 x4 x5 x6 x7 x8 i) := by
  rw [val_main_v41_apply, val_main_v40_apply, val_main_cst_3_apply, val_main_v39_apply, val_main_v38_apply,
    val_main_cst_2_apply, val_main_v37_apply, val_main_v36_apply]
  show Ideal.div (Ideal.ofBits .f32 0x3F800000#32) (Ideal.ofBits .f32 0x3F800000#32 + Ideal.exp (-_)) = _
  rw [Ideal.ofBits_one_f32]
  rfl

/-- The update gate's sigmoid, spelt divide(1, 1 + exp(−s)), is the logistic function. -/
theorem sig_update (x0 x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x5 x6 : (⟨S768x256, .f32⟩ : BufTy).Contents (Elt Ideal)) (x7 x8 : (⟨S768, .f32⟩ : BufTy).Contents (Elt Ideal)) (i : S200000x256.Idx) :
    val_main_v48 (F := Ideal) x0 x1 x2 x3 x4 x5 x6 x7 x8 i
      = Ideal.logistic (val_main_v42 (F := Ideal) x0 x1 x2 x3 x4 x5 x6 x7 x8 i) := by
  rw [val_main_v48_apply, val_main_v47_apply, val_main_cst_5_apply, val_main_v46_apply, val_main_v45_apply,
    val_main_cst_4_apply, val_main_v44_apply, val_main_v43_apply]
  show Ideal.div (Ideal.ofBits .f32 0x3F800000#32) (Ideal.ofBits .f32 0x3F800000#32 + Ideal.exp (-_)) = _
  rw [Ideal.ofBits_one_f32]
  rfl

/-- The result read at (r, q): the recurrent cell of node r on its fused row. -/
theorem out_read (x0 x1 x2 : (⟨S200000x256, .f32⟩ : BufTy).Contents (Elt Ideal))
    (x3 : (⟨S256x1024, .f32⟩ : BufTy).Contents (Elt Ideal)) (x4 : (⟨S256, .f32⟩ : BufTy).Contents (Elt Ideal))
    (x5 x6 : (⟨S768x256, .f32⟩ : BufTy).Contents (Elt Ideal)) (x7 x8 : (⟨S768, .f32⟩ : BufTy).Contents (Elt Ideal)) (r : Fin 200000) (q : Fin 256) :
    val_main_v56 (F := Ideal) x0 x1 x2 x3 x4 x5 x6 x7 x8 (ix2 r q)
      = Cert.Spec.cell (Cert.Spec.fuseRow (Cert.Spec.gateR (row x1 r) (row x2 r) (mat x3) (vec x4)) (row x1 r) (row x2 r))
          (row x0 r) (Cert.Spec.matT x5) (Cert.Spec.matT x6) (vec x7) (vec x8) q := by
  rw [val_main_v56_apply, val_main_v54_apply, val_main_v55_apply, val_main_v53_apply, val_main_v52_apply,
    val_main_cst_6_apply, val_main_v51_apply, val_main_v50_apply, val_main_v49_apply, sig_reset, sig_update,
    val_main_v35_apply, val_main_v42_apply, gi0_read, gi1_read, gi2_read, gh0_read, gh1_read, gh2_read, fuse_read]
  rfl

/-- The reference program's result is the specification, with one product of length 1024 for the gate. -/
theorem ref_eq (x0 x1 x2 : (⟨Cert.ReferenceIdeal.S200000x256, .f32⟩ : BufTy).Contents (Elt Ideal))
    (x3 : (⟨Cert.ReferenceIdeal.S256x1024, .f32⟩ : BufTy).Contents (Elt Ideal))
    (x4 : (⟨Cert.ReferenceIdeal.S256, .f32⟩ : BufTy).Contents (Elt Ideal))
    (x5 x6 : (⟨Cert.ReferenceIdeal.S768x256, .f32⟩ : BufTy).Contents (Elt Ideal))
    (x7 x8 : (⟨Cert.ReferenceIdeal.S768, .f32⟩ : BufTy).Contents (Elt Ideal)) :
    Cert.ReferenceIdeal.Read.val_main_v56 (F := Ideal) x0 x1 x2 x3 x4 x5 x6 x7 x8
      = Cert.Spec.outR x0 x1 x2 x3 x4 x5 x6 x7 x8 := by
  funext i
  obtain ⟨r, q, rfl⟩ : ∃ r q, i = ix2 r q := ⟨i 0, i 1, eq_ix2 i⟩
  rw [out_read]
  rfl

end Cert.RefValue

end
-- ==== Proof.Fold.lean ====
/-
  The two spellings of the gate's pre-activation agree on finite data.

  For real rows a, b of length 256 and a real [256, 1024] matrix W, the sum over 1024 columns of
  [a, b, a − b, a·b] · W q splits into four sums over 256 columns at offsets 0, 256, 512, 768; the third,
  Σ (a j − b j) · W q (512 + j), is distributed and regrouped with the first two:
    Σ a j · (W q j + W q (512 + j)) + Σ b j · (W q (256 + j) − W q (512 + j)) + Σ (a j · b j) · W q (768 + j).
  Distributivity holds on the reals, and the coercion of the reals into the extended reals commutes with +, − and ·.
-/
import proofs.«169519_j65833258713547_2_alg».proof.Proof.Spec

noncomputable section

namespace Cert.Fold

open Idealize.ShloMosaic Idealize.ShloMosaic.ValueIdx Cert.DenseRows Cert.Spec

/-! ## A sum over 1024 indices as a sum over 256 indices of four terms -/

/-- A sum over `Fin 1024` read in four consecutive quarters of length 256. -/
theorem sum_four {M : Type} [AddCommMonoid M] (g : Fin 1024 → M) :
    ∑ k : Fin 1024, g k
      = ∑ j : Fin 256, (g ⟨j.val, by omega⟩ + g ⟨256 + j.val, by omega⟩ + g ⟨512 + j.val, by omega⟩
          + g ⟨768 + j.val, by omega⟩) := by
  let G : ℕ → M := fun n => if h : n < 1024 then g ⟨n, h⟩ else 0
  have hG : ∀ (n : ℕ) (h : n < 1024), G n = g ⟨n, h⟩ := fun n h => dif_pos h
  have h1 : ∑ k : Fin 1024, g k = ∑ n ∈ Finset.range 1024, G n := by
    rw [← Fin.sum_univ_eq_sum_range]
    exact Finset.sum_congr rfl fun k _ => (hG k.val k.isLt).symm
  have h2 : ∑ j : Fin 256, (g ⟨j.val, by omega⟩ + g ⟨256 + j.val, by omega⟩ + g ⟨512 + j.val, by omega⟩
          + g ⟨768 + j.val, by omega⟩)
      = ∑ n ∈ Finset.range 256, (G n + G (256 + n) + G (512 + n) + G (768 + n)) := by
    rw [← Fin.sum_univ_eq_sum_range (fun n => G n + G (256 + n) + G (512 + n) + G (768 + n))]
    refine Finset.sum_congr rfl fun j _ => ?_
    rw [hG j.val (by omega), hG (256 + j.val) (by omega), hG (512 + j.val) (by omega), hG (768 + j.val) (by omega)]
  rw [h1, h2, Finset.sum_add_distrib, Finset.sum_add_distrib, Finset.sum_add_distrib]
  rw [show (1024 : ℕ) = 768 + 256 from rfl, Finset.sum_range_add,
    show (768 : ℕ) = 512 + 256 from rfl, Finset.sum_range_add,
    show (512 : ℕ) = 256 + 256 from rfl, Finset.sum_range_add]

/-! ## The folded weights and the concatenated row, read quarter by quarter -/

theorem foldW_c0 (Wz : Fin 256 → Fin 1024 → EReal) (j q : Fin 256) :
    foldW Wz (c0 j) q = Wz q ⟨j.val, by omega⟩ + Wz q ⟨512 + j.val, by omega⟩ := by
  unfold foldW
  rw [dif_pos (show (c0 j).val < 256 from j.isLt)]
  rfl

theorem foldW_c1 (Wz : Fin 256 → Fin 1024 → EReal) (j q : Fin 256) :
    foldW Wz (c1 j) q = Wz q ⟨256 + j.val, by omega⟩ - Wz q ⟨512 + j.val, by omega⟩ := by
  have hv : (c1 j).val = 256 + j.val := rfl
  unfold foldW
  rw [dif_neg (show ¬ (c1 j).val < 256 by omega), dif_pos (show (c1 j).val < 512 by omega)]
  congr 2
  exact Fin.ext (by show 256 + (c1 j).val = 512 + j.val; omega)

theorem foldW_c2 (Wz : Fin 256 → Fin 1024 → EReal) (j q : Fin 256) :
    foldW Wz (c2 j) q = Wz q ⟨768 + j.val, by omega⟩ := by
  have hv : (c2 j).val = 512 + j.val := rfl
  unfold foldW
  rw [dif_neg (show ¬ (c2 j).val < 256 by omega), dif_neg (show ¬ (c2 j).val < 512 by omega)]
  congr 1
  exact Fin.ext (by show 256 + (c2 j).val = 768 + j.val; omega)

theorem cat4_q0 (a b : Fin 256 → EReal) (j : Fin 256) : cat4 a b ⟨j.val, by omega⟩ = a j := by
  unfold cat4
  rw [dif_pos (show (⟨j.val, by omega⟩ : Fin 1024).val < 256 from j.isLt)]

theorem cat4_q1 (a b : Fin 256 → EReal) (j : Fin 256) : cat4 a b ⟨256 + j.val, by omega⟩ = b j := by
  unfold cat4
  rw [dif_neg (show ¬ (⟨256 + j.val, by omega⟩ : Fin 1024).val < 256 from by show ¬ 256 + j.val < 256; omega),
    dif_pos (show (⟨256 + j.val, by omega⟩ : Fin 1024).val < 512 from by show 256 + j.val < 512; omega)]
  exact congrArg b (Fin.ext (by show 256 + j.val - 256 = j.val; omega))

theorem cat4_q2 (a b : Fin 256 → EReal) (j : Fin 256) : cat4 a b ⟨512 + j.val, by omega⟩ = a j - b j := by
  have e : (⟨512 + j.val - 512, by omega⟩ : Fin 256) = j := Fin.ext (by show 512 + j.val - 512 = j.val; omega)
  unfold cat4
  rw [dif_neg (show ¬ (⟨512 + j.val, by omega⟩ : Fin 1024).val < 256 from by show ¬ 512 + j.val < 256; omega),
    dif_neg (show ¬ (⟨512 + j.val, by omega⟩ : Fin 1024).val < 512 from by show ¬ 512 + j.val < 512; omega),
    dif_pos (show (⟨512 + j.val, by omega⟩ : Fin 1024).val < 768 from by show 512 + j.val < 768; omega)]
  exact congrArg₂ (fun x y => a x - b y) e e

theorem cat4_q3 (a b : Fin 256 → EReal) (j : Fin 256) : cat4 a b ⟨768 + j.val, by omega⟩ = a j * b j := by
  have e : (⟨768 + j.val - 768, by omega⟩ : Fin 256) = j := Fin.ext (by show 768 + j.val - 768 = j.val; omega)
  unfold cat4
  rw [dif_neg (show ¬ (⟨768 + j.val, by omega⟩ : Fin 1024).val < 256 from by show ¬ 768 + j.val < 256; omega),
    dif_neg (show ¬ (⟨768 + j.val, by omega⟩ : Fin 1024).val < 512 from by show ¬ 768 + j.val < 512; omega),
    dif_neg (show ¬ (⟨768 + j.val, by omega⟩ : Fin 1024).val < 768 from by show ¬ 768 + j.val < 768; omega)]
  exact congrArg₂ (fun x y => a x * b y) e e

/-! ## One term: distributivity on the reals, carried to the extended reals -/

theorem term_eq (x y w0 w1 w2 w3 : ℝ) :
    ((x : EReal) * ((w0 : EReal) + (w2 : EReal)) + (y : EReal) * ((w1 : EReal) - (w2 : EReal)))
        + ((x : EReal) * (y : EReal)) * (w3 : EReal)
      = (x : EReal) * (w0 : EReal) + (y : EReal) * (w1 : EReal) + ((x : EReal) - (y : EReal)) * (w2 : EReal)
        + ((x : EReal) * (y : EReal)) * (w3 : EReal) := by
  have h : (x * (w0 + w2) + y * (w1 - w2)) + (x * y) * w3 = x * w0 + y * w1 + (x - y) * w2 + (x * y) * w3 := by ring
  exact_mod_cast h

/-! ## The gate -/

/-- With finite rows and finite weights, the folded spelling of the gate's pre-activation is the concatenated one. -/
theorem gate_fold (a b : Fin 256 → ℝ) (W : Fin 256 → Fin 1024 → ℝ) (bz : Fin 256 → EReal) :
    Cert.Spec.gateK (fun j => ((a j : ℝ) : EReal)) (fun j => ((b j : ℝ) : EReal))
        (Cert.Spec.foldW fun q k => ((W q k : ℝ) : EReal)) bz
      = Cert.Spec.gateR (fun j => ((a j : ℝ) : EReal)) (fun j => ((b j : ℝ) : EReal))
        (fun q k => ((W q k : ℝ) : EReal)) bz := by
  funext q
  unfold gateK gateR
  refine congrArg (· + bz q) ?_
  rw [sum_four (fun k => cat4 (fun j => ((a j : ℝ) : EReal)) (fun j => ((b j : ℝ) : EReal)) k * ((W q k : ℝ) : EReal)),
    ← Finset.sum_add_distrib, ← Finset.sum_add_distrib]
  refine Finset.sum_congr rfl fun j _ => ?_
  rw [foldW_c0, foldW_c1, foldW_c2]
  beta_reduce
  rw [cat4_q0, cat4_q1, cat4_q2, cat4_q3]
  exact term_eq _ _ _ _ _ _

/-- The two arrangements of the whole result agree when the two feature arrays and the gate's weights are finite. -/
theorem outK_eq_outR (f hv hv2 : (⟨2, ![200000, 256]⟩ : Shape).Idx → EReal)
    (Wz : (⟨2, ![256, 1024]⟩ : Shape).Idx → EReal) (bz : (⟨1, ![256]⟩ : Shape).Idx → EReal)
    (Wih Whh : (⟨2, ![768, 256]⟩ : Shape).Idx → EReal) (bih bhh : (⟨1, ![768]⟩ : Shape).Idx → EReal)
    (h1 : ∀ i, ∃ x : ℝ, hv i = (x : EReal)) (h2 : ∀ i, ∃ x : ℝ, hv2 i = (x : EReal))
    (h3 : ∀ i, ∃ x : ℝ, Wz i = (x : EReal)) :
    Cert.Spec.outK f hv hv2 Wz bz Wih Whh bih bhh = Cert.Spec.outR f hv hv2 Wz bz Wih Whh bih bhh := by
  choose hv' e1 using h1
  choose hv2' e2 using h2
  choose Wz' e3 using h3
  obtain rfl : hv = fun i => ((hv' i : ℝ) : EReal) := funext e1
  obtain rfl : hv2 = fun i => ((hv2' i : ℝ) : EReal) := funext e2
  obtain rfl : Wz = fun i => ((Wz' i : ℝ) : EReal) := funext e3
  funext i
  unfold outK outR
  have hg := gate_fold (fun j => hv' (ix2 (i 0) j)) (fun j => hv2' (ix2 (i 0) j)) (fun q k => Wz' (ix2 q k)) (vec bz)
  exact congrArg (fun s => node s (row f (i 0)) (row (fun i => ((hv' i : ℝ) : EReal)) (i 0))
    (row (fun i => ((hv2' i : ℝ) : EReal)) (i 0)) (matT Wih) (matT Whh) (vec bih) (vec bhh) (i 1)) hg

end Cert.Fold

end
-- ==== Proof.Finite.lean ====
/-
  Finiteness of the inputs, read off the printed precondition.

  The precondition is a conjunction of nine statements "every entry x of the array has |x| < +∞", each printed as a
  reduction by `and` of the entrywise comparison of |x| with the word of +∞. On the extended reals |x| = max x (−x),
  and max x (−x) < ⊤ rules out x = ⊤ and x = ⊥: x is a real number. Read here for the second and third feature arrays
  and the gate's weights.
-/
import proofs.«169519_j65833258713547_2_alg».proof.Defs
import proofs.«169519_j65833258713547_2_alg».proof.Proof.Gen.Pre_finite_inputs
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Idealize.SL.Sem

/-- The shape of rank zero has one index. -/
instance : Subsingleton Cert.Pre_finite_inputs.S_.Idx := ⟨fun a b => funext fun d => d.elim0⟩

/-- The f32 word of +∞ read on the extended reals. -/
theorem ofBits_inf : Ideal.ofBits .f32 0x7F800000#32 = (⊤ : EReal) := by simp [Ideal.ofBits, Ideal.ieee]

/-- An extended real whose absolute value max x (−x) is below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem ofBool_eq_one {b : Bool} : BitVec.ofBool b = 1#1 ↔ b = true := by cases b <;> decide

/-- One conjunct of the precondition: when the reduction by `and` of the entrywise test |x| < +∞ is 1, every entry
    of x is a real number. -/
theorem real_of_all {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s dims hb (constant (F := Ideal) Cert.Pre_finite_inputs.S_ .f32 0x7F800000#32)))
        init hr hu ix0 = 1#1)
    (i : s.Idx) : ∃ r : ℝ, x i = (r : EReal) := by
  have hi := Host.reduce_andi_all _ init hr hu ix0 e i
  rw [cmpf_apply, broadcastInDim_apply dims hb _ i ix0 (fun a => a.elim0), constant_apply, ofBits_inf] at hi
  have hlt : max (x i) (-(x i)) < (⊤ : EReal) := of_decide_eq_true (ofBool_eq_one.1 hi)
  exact real_of_abs_lt_top (x i) hlt

/-- Under the precondition the second and third feature arrays and the gate's weights are real, entry by entry. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal)) := by
  have e := congrFun (h c) ValueIdx.ix0
  dsimp only [Cert.Pre_finite_inputs.fn, Cert.Pre_finite_inputs.fn_part1, Cert.Pre_finite_inputs.fn_part2] at e
  -- the conjunction, opened from its last conjunct (the ninth array) back to the first
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h3⟩ := IntOp.andi_eq_one.1 e
  obtain ⟨e, h2⟩ := IntOp.andi_eq_one.1 e
  obtain ⟨-, h1⟩ := IntOp.andi_eq_one.1 e
  exact ⟨real_of_all _ _ _ _ _ _ h1, real_of_all _ _ _ _ _ _ h2, real_of_all _ _ _ _ _ _ h3⟩

end Cert.Finite

end
-- ==== Proof.lean ====
/-
  The gated fuse followed by a gated recurrent cell, over 200000 nodes of width 256: the kernel against its reference.

  Both programs compute, for every node (row) with features a = h_v, b = h_v', f:
    s = gate pre-activation, z = logistic s, fuse = z·a + (1 − z)·b,
    gi = f·Wihᵀ + bih, gh = fuse·Whhᵀ + bhh, r = logistic (gi₀ + gh₀), u = logistic (gi₁ + gh₁),
    n = tanh (gi₂ + r·gh₂), result = (1 − u)·n + u·fuse.
  They differ in one place. The reference forms s as ONE product of the concatenated row [a, b, a − b, a·b] (length
  1024) with Wzᵀ. The kernel is handed the weights folded on the host — w0 + w2, w1 − w2, w3 stacked — and forms s as
  THREE products of length 256: a·(w0 + w2) + b·(w1 − w2) + (a·b)·w3. The two agree by distributivity of · over + and −,
  which on the extended reals needs the factors finite: this is where the precondition (every input finite) is used.
  Everything else is the same function of the same rows on both sides: a change of float format is the identity at the
  ideal instance, a matrix product into a zero accumulator is the host's general dot product, the kernel's logistic is
  the host's 1 / (1 + e⁻ˣ), and the kernel's 200 blocks of 1000 rows tile the array.

  The three frames: the reference is host operations only, and its run read back gives its frame; each of the two
  kernel programs is sixteen host operations and one region whose body, at every grid point, loads nine whole staging
  buffers and covers the tenth with one store (Proof/FrameK.lean, Proof/FrameI.lean over Proof/EntryK.lean,
  Proof/EntryI.lean). The idealization rewrote nothing, so nothing is to be preserved beyond the text itself.
  The kernel's result array as one function of the arguments: Proof/KernelValue.lean (over Proof/Payload.lean, the
  body's arithmetic at an index, and Proof/HostPrefix.lean, the folded and transposed weights at an index); the
  reference's: Proof/RefValue.lean; the law between the two spellings of s: Proof/Fold.lean; finiteness of the inputs
  from the precondition: Proof/Finite.lean; the common specification: Proof/Spec.lean.
-/
import proofs.«169519_j65833258713547_2_alg».proof.Defs
import proofs.«169519_j65833258713547_2_alg».proof.Proof.Gen.Kernel
import proofs.«169519_j65833258713547_2_alg».proof.Proof.Gen.KernelIdeal
import proofs.«169519_j65833258713547_2_alg».proof.Proof.Gen.ReferenceIdeal
import proofs.«169519_j65833258713547_2_alg».proof.Proof.Gen.Pre_finite_inputs
import proofs.«169519_j65833258713547_2_alg».proof.Proof.Gen.ReferenceIdeal.Run
import proofs.«169519_j65833258713547_2_alg».proof.Proof.Gen.ReferenceIdeal.Read
import proofs.«169519_j65833258713547_2_alg».proof.Proof.FrameK
import proofs.«169519_j65833258713547_2_alg».proof.Proof.FrameI
import proofs.«169519_j65833258713547_2_alg».proof.Proof.KernelValue
import proofs.«169519_j65833258713547_2_alg».proof.Proof.RefValue
import proofs.«169519_j65833258713547_2_alg».proof.Proof.Fold
import proofs.«169519_j65833258713547_2_alg».proof.Proof.Finite

noncomputable section

namespace Cert.Proof

open Idealize.ShloMosaic Idealize.SL.Sem

/-- The word-level kernel runs to the end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the same result array: the kernel's is the node
    function with the folded gate, the reference's the node function with the concatenated gate, and the two gates
    agree on finite rows and weights. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3⟩ := Cert.Finite.real_of_pre m hpre c
  obtain ⟨a0, a1, a2, a3, a4, a5, a6, a7, a8⟩ := hagree c
  rw [Cert.ReferenceIdeal.Read.val_main_v56_eq, Cert.RefValue.ref_eq, a0, a1, a2, a3, a4, a5, a6, a7, a8]
  exact (Cert.Fold.outK_eq_outR _ _ _ _ _ _ _ _ _ h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
